-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 32
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8192x1024, .f32⟩
  | .hbm, ⟨12, _⟩ => ⟨S1024x1024, .bf16⟩
  | .hbm, ⟨13, _⟩ => ⟨S1x1024, .f32⟩
  | .hbm, ⟨14, _⟩ => ⟨S8192x1024, .bf16⟩
  | .hbm, ⟨15, _⟩ => ⟨S4x2048x1024, .bf16⟩
  | .hbm, ⟨16, _⟩ => ⟨S8192x1024, .f32⟩
  | .hbm, ⟨17, _⟩ => ⟨S1024x1024, .bf16⟩
  | .hbm, ⟨18, _⟩ => ⟨S1x1024, .f32⟩
  | .hbm, ⟨19, _⟩ => ⟨S8192x1024, .bf16⟩
  | .hbm, ⟨20, _⟩ => ⟨S4x2048x1024, .bf16⟩
  | .hbm, ⟨21, _⟩ => ⟨S8192x1024, .f32⟩
  | .hbm, ⟨22, _⟩ => ⟨S1024x1024, .bf16⟩
  | .hbm, ⟨23, _⟩ => ⟨S1x1024, .f32⟩
  | .hbm, ⟨24, _⟩ => ⟨S8192x1024, .bf16⟩
  | .hbm, ⟨25, _⟩ => ⟨S4x2048x1024, .bf16⟩
  | .hbm, ⟨26, _⟩ => ⟨S4x2048x1024, .bf16⟩
  | .hbm, ⟨27, _⟩ => ⟨S8192x1024, .bf16⟩
  | .hbm, ⟨28, _⟩ => ⟨S1024x1024, .bf16⟩
  | .hbm, ⟨29, _⟩ => ⟨S1x1024, .f32⟩
  | .hbm, ⟨30, _⟩ => ⟨S8192x1024, .f32⟩
  | .hbm, ⟨31, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def k3_mult1 : BitVec 32 :=
  let c0_i32 : BitVec 32 := 0#32
  let c64_i32 : BitVec 32 := 64#32
  let v0 : BitVec 32 := Scalar.muli c0_i32 c64_i32
  v0
def k3_off1 (c0_i32 : BitVec 32) : Fin 3 → Nat :=
  let c0 : Index := 0#32
  let c0_0 : Index := 0#32
  let c64_i32 : BitVec 32 := 64#32
  let v0 : BitVec 32 := Scalar.muli c0_i32 c64_i32
  let v1 : BitVec 32 := v0
  let v2 : Index := Scalar.indexCast v1
  ![0, 0, v2.toNat]
def k3_off2 (c0_i32 : BitVec 32) : Fin 3 → Nat :=
  let c0_1 : Index := 0#32
  let c0_2 : Index := 0#32
  let c64_i32 : BitVec 32 := 64#32
  let v0 : BitVec 32 := Scalar.muli c0_i32 c64_i32
  let v1 : BitVec 32 := v0
  let v5 : Index := Scalar.indexCast v1
  ![0, 0, v5.toNat]
def k3_mult2 : BitVec 32 :=
  let c1_i32 : BitVec 32 := 1#32
  let c64_i32_11 : BitVec 32 := 64#32
  let v30 : BitVec 32 := Scalar.muli c1_i32 c64_i32_11
  v30
def k3_mult3 : BitVec 32 :=
  let c2_i32 : BitVec 32 := 2#32
  let c64_i32_25 : BitVec 32 := 64#32
  let v60 : BitVec 32 := Scalar.muli c2_i32 c64_i32_25
  v60
def k3_mult4 : BitVec 32 :=
  let c3_i32 : BitVec 32 := 3#32
  let c64_i32_39 : BitVec 32 := 64#32
  let v90 : BitVec 32 := Scalar.muli c3_i32 c64_i32_39
  v90
def k3_mult5 : BitVec 32 :=
  let c4_i32 : BitVec 32 := 4#32
  let c64_i32_53 : BitVec 32 := 64#32
  let v120 : BitVec 32 := Scalar.muli c4_i32 c64_i32_53
  v120
def k3_mult6 : BitVec 32 :=
  let c5_i32 : BitVec 32 := 5#32
  let c64_i32_67 : BitVec 32 := 64#32
  let v150 : BitVec 32 := Scalar.muli c5_i32 c64_i32_67
  v150
def k3_mult7 : BitVec 32 :=
  let c6_i32 : BitVec 32 := 6#32
  let c64_i32_81 : BitVec 32 := 64#32
  let v180 : BitVec 32 := Scalar.muli c6_i32 c64_i32_81
  v180
def k3_mult8 : BitVec 32 :=
  let c7_i32 : BitVec 32 := 7#32
  let c64_i32_95 : BitVec 32 := 64#32
  let v210 : BitVec 32 := Scalar.muli c7_i32 c64_i32_95
  v210
def k3_mult9 : BitVec 32 :=
  let c8_i32 : BitVec 32 := 8#32
  let c64_i32_109 : BitVec 32 := 64#32
  let v240 : BitVec 32 := Scalar.muli c8_i32 c64_i32_109
  v240
def k3_mult10 : BitVec 32 :=
  let c9_i32 : BitVec 32 := 9#32
  let c64_i32_123 : BitVec 32 := 64#32
  let v270 : BitVec 32 := Scalar.muli c9_i32 c64_i32_123
  v270
def k3_mult11 : BitVec 32 :=
  let c10_i32 : BitVec 32 := 10#32
  let c64_i32_137 : BitVec 32 := 64#32
  let v300 : BitVec 32 := Scalar.muli c10_i32 c64_i32_137
  v300
def k3_mult12 : BitVec 32 :=
  let c11_i32 : BitVec 32 := 11#32
  let c64_i32_151 : BitVec 32 := 64#32
  let v330 : BitVec 32 := Scalar.muli c11_i32 c64_i32_151
  v330
def k3_mult13 : BitVec 32 :=
  let c12_i32 : BitVec 32 := 12#32
  let c64_i32_165 : BitVec 32 := 64#32
  let v360 : BitVec 32 := Scalar.muli c12_i32 c64_i32_165
  v360
def k3_mult14 : BitVec 32 :=
  let c13_i32 : BitVec 32 := 13#32
  let c64_i32_179 : BitVec 32 := 64#32
  let v390 : BitVec 32 := Scalar.muli c13_i32 c64_i32_179
  v390
def k3_mult15 : BitVec 32 :=
  let c14_i32 : BitVec 32 := 14#32
  let c64_i32_193 : BitVec 32 := 64#32
  let v420 : BitVec 32 := Scalar.muli c14_i32 c64_i32_193
  v420
def k3_mult16 : BitVec 32 :=
  let c15_i32 : BitVec 32 := 15#32
  let c64_i32_207 : BitVec 32 := 64#32
  let v450 : BitVec 32 := Scalar.muli c15_i32 c64_i32_207
  v450
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  h_S1x512x64 : 0 < S1x512x64.numel
  shapeCasts_S1x512x64_S512x64 : S1x512x64.ShapeCasts S512x64
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  k3_mult1_dvd : 64 ∣ k3_mult1.toNat
  k3_off1_inb : ∀ (r : Fin 16), ∀ a, (k3_off1 (BitVec.ofNat 32 r.val)) a + S1x512x64.size a ≤ S1x512x1024.size a
  k3_off2_inb : ∀ (r : Fin 16), ∀ a, (k3_off2 (BitVec.ofNat 32 r.val)) a + S1x2048x64.size a ≤ S1x2048x1024.size a
  k3_off1_packedbf16 : ∀ (r : Fin 16), (Rect.unit (s := S1x512x1024) (k3_off1 (BitVec.ofNat 32 r.val)) S1x512x64.size (k3_off1_inb r)).PackedRows (EltTy.packing .bf16)
  k3_mult2_dvd : 64 ∣ k3_mult2.toNat
  k3_mult3_dvd : 64 ∣ k3_mult3.toNat
  k3_mult4_dvd : 64 ∣ k3_mult4.toNat
  k3_mult5_dvd : 64 ∣ k3_mult5.toNat
  k3_mult6_dvd : 64 ∣ k3_mult6.toNat
  k3_mult7_dvd : 64 ∣ k3_mult7.toNat
  k3_mult8_dvd : 64 ∣ k3_mult8.toNat
  k3_mult9_dvd : 64 ∣ k3_mult9.toNat
  k3_mult10_dvd : 64 ∣ k3_mult10.toNat
  k3_mult11_dvd : 64 ∣ k3_mult11.toNat
  k3_mult12_dvd : 64 ∣ k3_mult12.toNat
  k3_mult13_dvd : 64 ∣ k3_mult13.toNat
  k3_mult14_dvd : 64 ∣ k3_mult14.toNat
  k3_mult15_dvd : 64 ∣ k3_mult15.toNat
  k3_mult16_dvd : 64 ∣ k3_mult16.toNat
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .bf16 = 32 ∨ (Rect.block (s := S4x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1024.size a ≤ S4x2048x1024.size a
  hwx3_3 : ∀ i : grid3.Coords, EltTy.bits .bf16 = 32 ∨ (Rect.block (s := S4x2048x1024) S1x512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v16) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The kernel program's run with its result kept. The program is five launches among stretches of host operations; its
  buffers at each boundary are a fold from the launch memory, a launch's arrays ending at what its write-backs leave.
  Every weakly fair execution terminates with the result buffer at the last boundary's contents and the eleven
  argument arrays as launched.
-/
import proofs.«132513_j14877766714149_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents of the last boundary of the fold, the arguments as launched. -/
theorem run_result : θ_run defs (onTc (τ := τ) (main (F := F))) ⟨m, fun _ => 0, ρ⟩ (fun r => ∀ c : Dev nD,
      r.2.mem ((c.tc : Thread nD τ).loc main_v20) = W11 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v20 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.LibTransProduct.lean ====
/-
  The product of an [M, K] matrix by the transpose of an [N, K] matrix — both operands contracted on their columns, no
  batch axis — read at entry (a, b) as the sum over the contracted coordinate c of A(a, c) · B(b, c): as a host program
  computes it, and as a kernel computes it into a zero accumulator. For any extents, at the ideal values.
-/
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace TransProduct

open Idealize.ShloMosaic Idealize.ShloMosaic.ValueIdx

/-- The host's product A · Bᵀ at entry (a, b): the sum over c of A(a, c) · B(b, c). -/
theorem dotGeneral_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The same for any dimension record that is that one. -/
theorem dotGeneral_apply {M K N : Nat} {φ₁ φ₂ : FTy} (D : DotDims ⟨2, ![M, K]⟩ ⟨2, ![N, K]⟩ ⟨2, ![M, N]⟩)
    (hD : D = DotDims.transposedRhs M K N) (prec : Option ContractPrecision)
    (A : FVec Ideal ⟨2, ![M, K]⟩ φ₁) (B : FVec Ideal ⟨2, ![N, K]⟩ φ₂) (a : Fin M) (b : Fin N) :
    Host.dotGeneral D prec A B (ix2 a b) = ∑ c : Fin K, A (ix2 a c) * B (ix2 b c) := by
  subst hD
  exact dotGeneral_transposedRhs_apply prec A B a b

/-- A kernel's product A · Bᵀ into a zero accumulator at entry (a, b): the same sum. -/
theorem matmul_apply {M K N : Nat} {φ₁ φ₂ : FTy} (D : DotDims ⟨2, ![M, K]⟩ ⟨2, ![N, K]⟩ ⟨2, ![M, N]⟩)
    (hD : D = DotDims.transposedRhs M K N) (prec : Option ContractPrecision)
    (A : FVec Ideal ⟨2, ![M, K]⟩ φ₁) (B : FVec Ideal ⟨2, ![N, K]⟩ φ₂) (a : Fin M) (b : Fin N) :
    matmul D prec A B (constant ⟨2, ![M, N]⟩ .f32 0x00000000#32) (ix2 a b) = ∑ c : Fin K, A (ix2 a c) * B (ix2 b c) := by
  rw [matmul_zero_eq_dotGeneral]
  exact dotGeneral_apply D hD prec A B a b

end TransProduct

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.LibLinearRows.lean ====
/-
  A linear layer on a matrix of R rows: entry (r, j) of the result is Σ_e X(r, e) · W(j, e) + b(0, j), for X of extents
  [R, E], W of extents [J, E] and the bias a row [1, J]. A kernel computes it as the product X · Wᵀ into a zero
  accumulator plus the bias row laid along every row; read at an entry that is this sum. Restricting X to a block of
  consecutive rows restricts the result to the same rows.
-/
import proofs.«132513_j14877766714149_2_alg».proof.Proof.LibTransProduct
import proofs.«132513_j14877766714149_2_alg».proof.Proof.LibSoftLayout

noncomputable section

open scoped BigOperators

namespace LinearRows

open Idealize.ShloMosaic Idealize.ShloMosaic.ValueIdx

/-- Rows of X times the transpose of W, plus the bias row: entry (r, j) is Σ_e X(r, e) · W(j, e) + b(0, j). -/
def rows {R J E : Nat} (X : (⟨2, ![R, E]⟩ : Shape).Idx → EReal) (W : (⟨2, ![J, E]⟩ : Shape).Idx → EReal)
    (b : (⟨2, ![1, J]⟩ : Shape).Idx → EReal) : (⟨2, ![R, J]⟩ : Shape).Idx → EReal :=
  fun i => (∑ e : Fin E, X (ix2 (i 0) e) * W (ix2 (i 1) e)) + b (ix2 (0 : Fin 1) (i 1))

theorem rows_apply {R J E : Nat} (X : (⟨2, ![R, E]⟩ : Shape).Idx → EReal) (W : (⟨2, ![J, E]⟩ : Shape).Idx → EReal)
    (b : (⟨2, ![1, J]⟩ : Shape).Idx → EReal) (r : Fin R) (j : Fin J) :
    rows X W b (ix2 r j) = (∑ e : Fin E, X (ix2 r e) * W (ix2 j e)) + b (ix2 (0 : Fin 1) j) := rfl

/-- The kernel's body: the product into a zero accumulator plus the bias row laid along the rows is `rows`. -/
theorem body_eq {R J E : Nat} {φ₁ φ₂ : FTy} (D : DotDims ⟨2, ![R, E]⟩ ⟨2, ![J, E]⟩ ⟨2, ![R, J]⟩)
    (hD : D = DotDims.transposedRhs R E J) (prec : Option ContractPrecision)
    (hb : (⟨2, ![1, J]⟩ : Shape).Broadcasts ⟨2, ![R, J]⟩)
    (x : FVec Ideal ⟨2, ![R, E]⟩ φ₁) (w : FVec Ideal ⟨2, ![J, E]⟩ φ₂) (b : FVec Ideal ⟨2, ![1, J]⟩ .f32) :
    addf (matmul D prec x w (constant ⟨2, ![R, J]⟩ .f32 0x00000000#32)) (broadcastTo ⟨2, ![R, J]⟩ b hb) = rows x w b := by
  funext i
  obtain ⟨r, j, rfl⟩ : ∃ (r : Fin R) (j : Fin J), i = ix2 r j := ⟨i 0, i 1, eq_ix2 i⟩
  rw [rows_apply, addf_apply, TransProduct.matmul_apply D hD prec x w r j, SoftLayout.row_to_apply hb b r j]

/-- Restriction to a block: if at row r' of the block and row r of the whole the three operands read the same entries,
    the two results agree there. -/
theorem rows_block {R R' J J' E : Nat}
    (X : (⟨2, ![R, E]⟩ : Shape).Idx → EReal) (W : (⟨2, ![J, E]⟩ : Shape).Idx → EReal) (b : (⟨2, ![1, J]⟩ : Shape).Idx → EReal)
    (X' : (⟨2, ![R', E]⟩ : Shape).Idx → EReal) (W' : (⟨2, ![J', E]⟩ : Shape).Idx → EReal) (b' : (⟨2, ![1, J']⟩ : Shape).Idx → EReal)
    (j : (⟨2, ![R', J']⟩ : Shape).Idx) (i : (⟨2, ![R, J]⟩ : Shape).Idx)
    (hX : ∀ e : Fin E, X' (ix2 (j 0) e) = X (ix2 (i 0) e)) (hW : ∀ e : Fin E, W' (ix2 (j 1) e) = W (ix2 (i 1) e))
    (hb : b' (ix2 (0 : Fin 1) (j 1)) = b (ix2 (0 : Fin 1) (i 1))) :
    rows X' W' b' j = rows X W b i := by
  unfold rows
  rw [hb]
  exact congrArg (· + b (ix2 (0 : Fin 1) (i 1))) (Finset.sum_congr rfl fun e _ => by rw [hX e, hW e])

end LinearRows

end
-- ==== Proof.Linear0.lean ====
/-
  Launch 0 of the kernel program: a linear layer. Its grid has 8 points; point t is given rows 1024·t … 1024·t + 1023 of
  the input matrix [8192, 1024], the whole weight matrix and the bias row, and writes rows 1024·t … of the output. On its
  blocks the body computes "rows of X times the transpose of W plus the bias row"; restricting X to a block of rows
  restricts that to the same rows, and the eight blocks tile the output, so the output array ends as that function of
  the three whole arrays as the launch finds them.
-/
import proofs.«132513_j14877766714149_2_alg».proof.Proof.Gen.KernelIdeal.Frame
import proofs.«132513_j14877766714149_2_alg».proof.Proof.LibLinearRows

set_option maxRecDepth 16384

noncomputable section

open scoped BigOperators

namespace Cert.KernelIdeal.Linear0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- On its three blocks the body computes rows of X times the transpose of W plus the bias row. -/
theorem pay_eq (x0 : Vec Ideal S1024x1024 .f32) (x1 : Vec Ideal S1024x1024 .bf16) (x2 : Vec Ideal S1x1024 .f32) :
    k0_pay1 (F := Ideal) x0 x1 x2 = LinearRows.rows x0 x1 x2 := by
  unfold k0_pay1
  simp only [shapeCast_self]
  exact LinearRows.body_eq dot_S1024x1024_S1024x1024_S1024x1024_1_1_0_0_n_n rfl none broadcasts_S1x1024_S1024x1024 _ _ _

/-- The index maps over the grid: the input and output blocks are block-row t, the weights and bias whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (r, e) of the input's block at point t is entry (1024·t + r, e) of the input. -/
theorem read_x (c : Dev nD) (t : Fin cfg0.N) (y : S1024x1024.Idx) (i : S8192x1024.Idx)
    (h0 : (i 0).val = t.val * 1024 + (y 0).val) (h1 : (i 1).val = (y 1).val) :
    iblk0 V c 0 t y = V c main_v0 i := by
  obtain ⟨e00, e01, -⟩ := idx_facts t
  show V c main_v0 (((cfg0.win 0).blk t).view.emb y) = V c main_v0 i
  refine congrArg (V c main_v0) (funext fun ax => Fin.ext ?_)
  match ax with
  | ⟨0, _⟩ => show win0_0.index t (0 : Fin 2) * 1024 + 1 * (y 0).val = (i 0).val; omega
  | ⟨1, _⟩ => show win0_0.index t (1 : Fin 2) * 1024 + 1 * (y 1).val = (i 1).val; omega

/-- The weights' block at any point is the whole weight matrix. -/
theorem read_w (c : Dev nD) (t : Fin cfg0.N) (y : S1024x1024.Idx) (i : S1024x1024.Idx)
    (h0 : (i 0).val = (y 0).val) (h1 : (i 1).val = (y 1).val) :
    iblk0 V c 1 t y = V c main_v1 i := by
  obtain ⟨-, -, e10, e11, -⟩ := idx_facts t
  show V c main_v1 (((cfg0.win 1).blk t).view.emb y) = V c main_v1 i
  refine congrArg (V c main_v1) (funext fun ax => Fin.ext ?_)
  match ax with
  | ⟨0, _⟩ => show win0_1.index t (0 : Fin 2) * 1024 + 1 * (y 0).val = (i 0).val; omega
  | ⟨1, _⟩ => show win0_1.index t (1 : Fin 2) * 1024 + 1 * (y 1).val = (i 1).val; omega

/-- The bias's block at any point is the whole bias row. -/
theorem read_b (c : Dev nD) (t : Fin cfg0.N) (y : S1x1024.Idx) (i : S1x1024.Idx)
    (h0 : (i 0).val = (y 0).val) (h1 : (i 1).val = (y 1).val) :
    iblk0 V c 2 t y = V c main_v2 i := by
  obtain ⟨-, -, -, -, e20, e21, -⟩ := idx_facts t
  show V c main_v2 (((cfg0.win 2).blk t).view.emb y) = V c main_v2 i
  refine congrArg (V c main_v2) (funext fun ax => Fin.ext ?_)
  match ax with
  | ⟨0, _⟩ => show win0_2.index t (0 : Fin 2) * 1 + 1 * (y 0).val = (i 0).val; omega
  | ⟨1, _⟩ => show win0_2.index t (1 : Fin 2) * 1024 + 1 * (y 1).val = (i 1).val; omega

/-- What point t writes back is block t of the linear layer of the three arrays as the launch finds them. -/
theorem flushed_eq (c : Dev nD) (t : Fin cfg0.N) :
    (dat0 V c).flushed 3 t = ((cfg0.win 3).blk t).view.read (Elt Ideal)
      (LinearRows.rows (R := 8192) (J := 1024) (E := 1024) (V c main_v0) (V c main_v1) (V c main_v2)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  rw [pay_eq]
  obtain ⟨-, -, -, -, -, -, e30, e31⟩ := idx_facts t
  funext j
  show LinearRows.rows (iblk0 V c 0 t) (iblk0 V c 1 t) (iblk0 V c 2 t) j
    = LinearRows.rows (R := 8192) (J := 1024) (E := 1024) (V c main_v0) (V c main_v1) (V c main_v2) (((cfg0.win 3).blk t).view.emb j)
  have hj0 : ((((cfg0.win 3).blk t).view.emb j) 0).val = t.val * 1024 + (j 0).val := by
    show win0_3.index t (0 : Fin 2) * 1024 + 1 * (j 0).val = _; omega
  have hj1 : ((((cfg0.win 3).blk t).view.emb j) 1).val = (j 1).val := by
    show win0_3.index t (1 : Fin 2) * 1024 + 1 * (j 1).val = _; omega
  refine LinearRows.rows_block _ _ _ _ _ _ j _ (fun e => ?_) (fun e => ?_) ?_
  · exact read_x V c t _ _ hj0 rfl
  · exact read_w V c t _ _ hj1 rfl
  · exact read_b V c t _ _ rfl hj1

/-- An index of the output is in point t's block iff its row is among rows 1024·t … 1024·t + 1023. -/
theorem mem_blk (t : Fin cfg0.N) (i : S8192x1024.Idx) :
    i ∈ ((cfg0.win 3).blk t).view.set ↔ ∀ ax : Fin 2, win0_3.index t ax * S1024x1024.size ax ≤ (i ax).val
      ∧ (i ax).val < win0_3.index t ax * S1024x1024.size ax + S1024x1024.size ax := by
  show i ∈ ((View.whole main_v3).slice (win0_3.rect t)).set ↔ _
  rw [View.set_slice_whole, Rect.mem_set_unit]
  exact Iff.rfl

/-- Every entry of the output is written back by the point of its block of rows. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have ht : (i 0).val / 1024 < cfg0.N := by rw [show cfg0.N = 8 from N_0]; omega
  obtain ⟨-, -, -, -, -, -, e30, e31⟩ := idx_facts ⟨(i 0).val / 1024, ht⟩
  refine ⟨⟨(i 0).val / 1024, ht⟩, flush0_3 _, ?_⟩
  rw [mem_blk]
  intro ax
  match ax with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e31]; omega

/-- The output array after the launch: the linear layer of the three arrays as the launch finds them. -/
theorem final (c : Dev nD) :
    (dat0 V c).arrAt 3 cfg0.N
      = LinearRows.rows (R := 8192) (J := 1024) (E := 1024) (V c main_v0) (V c main_v1) (V c main_v2) :=
  (dat0 V c).arrAt_eq_of_cover 3 _ (fun t _ => flushed_eq V c t) (cover)

end Cert.KernelIdeal.Linear0

end
-- ==== Proof.Linear1.lean ====
/-
  Launch 1 of the kernel program: a linear layer. Its grid has 8 points; point t is given rows 1024·t … 1024·t + 1023 of
  the input matrix [8192, 1024], the whole weight matrix and the bias row, and writes rows 1024·t … of the output. On its
  blocks the body computes "rows of X times the transpose of W plus the bias row"; restricting X to a block of rows
  restricts that to the same rows, and the eight blocks tile the output, so the output array ends as that function of
  the three whole arrays as the launch finds them.
-/
import proofs.«132513_j14877766714149_2_alg».proof.Proof.Gen.KernelIdeal.Frame
import proofs.«132513_j14877766714149_2_alg».proof.Proof.LibLinearRows

set_option maxRecDepth 16384

noncomputable section

open scoped BigOperators

namespace Cert.KernelIdeal.Linear1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- On its three blocks the body computes rows of X times the transpose of W plus the bias row. -/
theorem pay_eq (x0 : Vec Ideal S1024x1024 .f32) (x1 : Vec Ideal S1024x1024 .bf16) (x2 : Vec Ideal S1x1024 .f32) :
    k1_pay1 (F := Ideal) x0 x1 x2 = LinearRows.rows x0 x1 x2 := by
  unfold k1_pay1
  simp only [shapeCast_self]
  exact LinearRows.body_eq dot_S1024x1024_S1024x1024_S1024x1024_1_1_0_0_n_n rfl none broadcasts_S1x1024_S1024x1024 _ _ _

/-- The index maps over the grid: the input and output blocks are block-row t, the weights and bias whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, e) of the input's block at point t is entry (1024·t + r, e) of the input. -/
theorem read_x (c : Dev nD) (t : Fin cfg1.N) (y : S1024x1024.Idx) (i : S8192x1024.Idx)
    (h0 : (i 0).val = t.val * 1024 + (y 0).val) (h1 : (i 1).val = (y 1).val) :
    iblk1 V c 0 t y = V c main_v5 i := by
  obtain ⟨e00, e01, -⟩ := idx_facts t
  show V c main_v5 (((cfg1.win 0).blk t).view.emb y) = V c main_v5 i
  refine congrArg (V c main_v5) (funext fun ax => Fin.ext ?_)
  match ax with
  | ⟨0, _⟩ => show win1_0.index t (0 : Fin 2) * 1024 + 1 * (y 0).val = (i 0).val; omega
  | ⟨1, _⟩ => show win1_0.index t (1 : Fin 2) * 1024 + 1 * (y 1).val = (i 1).val; omega

/-- The weights' block at any point is the whole weight matrix. -/
theorem read_w (c : Dev nD) (t : Fin cfg1.N) (y : S1024x1024.Idx) (i : S1024x1024.Idx)
    (h0 : (i 0).val = (y 0).val) (h1 : (i 1).val = (y 1).val) :
    iblk1 V c 1 t y = V c main_v6 i := by
  obtain ⟨-, -, e10, e11, -⟩ := idx_facts t
  show V c main_v6 (((cfg1.win 1).blk t).view.emb y) = V c main_v6 i
  refine congrArg (V c main_v6) (funext fun ax => Fin.ext ?_)
  match ax with
  | ⟨0, _⟩ => show win1_1.index t (0 : Fin 2) * 1024 + 1 * (y 0).val = (i 0).val; omega
  | ⟨1, _⟩ => show win1_1.index t (1 : Fin 2) * 1024 + 1 * (y 1).val = (i 1).val; omega

/-- The bias's block at any point is the whole bias row. -/
theorem read_b (c : Dev nD) (t : Fin cfg1.N) (y : S1x1024.Idx) (i : S1x1024.Idx)
    (h0 : (i 0).val = (y 0).val) (h1 : (i 1).val = (y 1).val) :
    iblk1 V c 2 t y = V c main_v7 i := by
  obtain ⟨-, -, -, -, e20, e21, -⟩ := idx_facts t
  show V c main_v7 (((cfg1.win 2).blk t).view.emb y) = V c main_v7 i
  refine congrArg (V c main_v7) (funext fun ax => Fin.ext ?_)
  match ax with
  | ⟨0, _⟩ => show win1_2.index t (0 : Fin 2) * 1 + 1 * (y 0).val = (i 0).val; omega
  | ⟨1, _⟩ => show win1_2.index t (1 : Fin 2) * 1024 + 1 * (y 1).val = (i 1).val; omega

/-- What point t writes back is block t of the linear layer of the three arrays as the launch finds them. -/
theorem flushed_eq (c : Dev nD) (t : Fin cfg1.N) :
    (dat1 V c).flushed 3 t = ((cfg1.win 3).blk t).view.read (Elt Ideal)
      (LinearRows.rows (R := 8192) (J := 1024) (E := 1024) (V c main_v5) (V c main_v6) (V c main_v7)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  rw [pay_eq]
  obtain ⟨-, -, -, -, -, -, e30, e31⟩ := idx_facts t
  funext j
  show LinearRows.rows (iblk1 V c 0 t) (iblk1 V c 1 t) (iblk1 V c 2 t) j
    = LinearRows.rows (R := 8192) (J := 1024) (E := 1024) (V c main_v5) (V c main_v6) (V c main_v7) (((cfg1.win 3).blk t).view.emb j)
  have hj0 : ((((cfg1.win 3).blk t).view.emb j) 0).val = t.val * 1024 + (j 0).val := by
    show win1_3.index t (0 : Fin 2) * 1024 + 1 * (j 0).val = _; omega
  have hj1 : ((((cfg1.win 3).blk t).view.emb j) 1).val = (j 1).val := by
    show win1_3.index t (1 : Fin 2) * 1024 + 1 * (j 1).val = _; omega
  refine LinearRows.rows_block _ _ _ _ _ _ j _ (fun e => ?_) (fun e => ?_) ?_
  · exact read_x V c t _ _ hj0 rfl
  · exact read_w V c t _ _ hj1 rfl
  · exact read_b V c t _ _ rfl hj1

/-- An index of the output is in point t's block iff its row is among rows 1024·t … 1024·t + 1023. -/
theorem mem_blk (t : Fin cfg1.N) (i : S8192x1024.Idx) :
    i ∈ ((cfg1.win 3).blk t).view.set ↔ ∀ ax : Fin 2, win1_3.index t ax * S1024x1024.size ax ≤ (i ax).val
      ∧ (i ax).val < win1_3.index t ax * S1024x1024.size ax + S1024x1024.size ax := by
  show i ∈ ((View.whole main_v8).slice (win1_3.rect t)).set ↔ _
  rw [View.set_slice_whole, Rect.mem_set_unit]
  exact Iff.rfl

/-- Every entry of the output is written back by the point of its block of rows. -/
theorem cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have ht : (i 0).val / 1024 < cfg1.N := by rw [show cfg1.N = 8 from N_1]; omega
  obtain ⟨-, -, -, -, -, -, e30, e31⟩ := idx_facts ⟨(i 0).val / 1024, ht⟩
  refine ⟨⟨(i 0).val / 1024, ht⟩, flush1_3 _, ?_⟩
  rw [mem_blk]
  intro ax
  match ax with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win1_3.index ⟨(i 0).val / 1024, ht⟩ (1 : Fin 2) * 1024 ≤ (i 1).val
      ∧ (i 1).val < win1_3.index ⟨(i 0).val / 1024, ht⟩ (1 : Fin 2) * 1024 + 1024
    rw [e31]; omega

/-- The output array after the launch: the linear layer of the three arrays as the launch finds them. -/
theorem final (c : Dev nD) :
    (dat1 V c).arrAt 3 cfg1.N
      = LinearRows.rows (R := 8192) (J := 1024) (E := 1024) (V c main_v5) (V c main_v6) (V c main_v7) :=
  (dat1 V c).arrAt_eq_of_cover 3 _ (fun t _ => flushed_eq V c t) (cover)

end Cert.KernelIdeal.Linear1

end
-- ==== Proof.Linear2.lean ====
/-
  Launch 2 of the kernel program: a linear layer. Its grid has 8 points; point t is given rows 1024·t … 1024·t + 1023 of
  the input matrix [8192, 1024], the whole weight matrix and the bias row, and writes rows 1024·t … of the output. On its
  blocks the body computes "rows of X times the transpose of W plus the bias row"; restricting X to a block of rows
  restricts that to the same rows, and the eight blocks tile the output, so the output array ends as that function of
  the three whole arrays as the launch finds them.
-/
import proofs.«132513_j14877766714149_2_alg».proof.Proof.Gen.KernelIdeal.Frame
import proofs.«132513_j14877766714149_2_alg».proof.Proof.LibLinearRows

set_option maxRecDepth 16384

noncomputable section

open scoped BigOperators

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- On its three blocks the body computes rows of X times the transpose of W plus the bias row. -/
theorem pay_eq (x0 : Vec Ideal S1024x1024 .f32) (x1 : Vec Ideal S1024x1024 .bf16) (x2 : Vec Ideal S1x1024 .f32) :
    k2_pay1 (F := Ideal) x0 x1 x2 = LinearRows.rows x0 x1 x2 := by
  unfold k2_pay1
  simp only [shapeCast_self]
  exact LinearRows.body_eq dot_S1024x1024_S1024x1024_S1024x1024_1_1_0_0_n_n rfl none broadcasts_S1x1024_S1024x1024 _ _ _

/-- The index maps over the grid: the input and output blocks are block-row t, the weights and bias whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (r, e) of the input's block at point t is entry (1024·t + r, e) of the input. -/
theorem read_x (c : Dev nD) (t : Fin cfg2.N) (y : S1024x1024.Idx) (i : S8192x1024.Idx)
    (h0 : (i 0).val = t.val * 1024 + (y 0).val) (h1 : (i 1).val = (y 1).val) :
    iblk2 V c 0 t y = V c main_v10 i := by
  obtain ⟨e00, e01, -⟩ := idx_facts t
  show V c main_v10 (((cfg2.win 0).blk t).view.emb y) = V c main_v10 i
  refine congrArg (V c main_v10) (funext fun ax => Fin.ext ?_)
  match ax with
  | ⟨0, _⟩ => show win2_0.index t (0 : Fin 2) * 1024 + 1 * (y 0).val = (i 0).val; omega
  | ⟨1, _⟩ => show win2_0.index t (1 : Fin 2) * 1024 + 1 * (y 1).val = (i 1).val; omega

/-- The weights' block at any point is the whole weight matrix. -/
theorem read_w (c : Dev nD) (t : Fin cfg2.N) (y : S1024x1024.Idx) (i : S1024x1024.Idx)
    (h0 : (i 0).val = (y 0).val) (h1 : (i 1).val = (y 1).val) :
    iblk2 V c 1 t y = V c main_v11 i := by
  obtain ⟨-, -, e10, e11, -⟩ := idx_facts t
  show V c main_v11 (((cfg2.win 1).blk t).view.emb y) = V c main_v11 i
  refine congrArg (V c main_v11) (funext fun ax => Fin.ext ?_)
  match ax with
  | ⟨0, _⟩ => show win2_1.index t (0 : Fin 2) * 1024 + 1 * (y 0).val = (i 0).val; omega
  | ⟨1, _⟩ => show win2_1.index t (1 : Fin 2) * 1024 + 1 * (y 1).val = (i 1).val; omega

/-- The bias's block at any point is the whole bias row. -/
theorem read_b (c : Dev nD) (t : Fin cfg2.N) (y : S1x1024.Idx) (i : S1x1024.Idx)
    (h0 : (i 0).val = (y 0).val) (h1 : (i 1).val = (y 1).val) :
    iblk2 V c 2 t y = V c main_v12 i := by
  obtain ⟨-, -, -, -, e20, e21, -⟩ := idx_facts t
  show V c main_v12 (((cfg2.win 2).blk t).view.emb y) = V c main_v12 i
  refine congrArg (V c main_v12) (funext fun ax => Fin.ext ?_)
  match ax with
  | ⟨0, _⟩ => show win2_2.index t (0 : Fin 2) * 1 + 1 * (y 0).val = (i 0).val; omega
  | ⟨1, _⟩ => show win2_2.index t (1 : Fin 2) * 1024 + 1 * (y 1).val = (i 1).val; omega

/-- What point t writes back is block t of the linear layer of the three arrays as the launch finds them. -/
theorem flushed_eq (c : Dev nD) (t : Fin cfg2.N) :
    (dat2 V c).flushed 3 t = ((cfg2.win 3).blk t).view.read (Elt Ideal)
      (LinearRows.rows (R := 8192) (J := 1024) (E := 1024) (V c main_v10) (V c main_v11) (V c main_v12)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  rw [pay_eq]
  obtain ⟨-, -, -, -, -, -, e30, e31⟩ := idx_facts t
  funext j
  show LinearRows.rows (iblk2 V c 0 t) (iblk2 V c 1 t) (iblk2 V c 2 t) j
    = LinearRows.rows (R := 8192) (J := 1024) (E := 1024) (V c main_v10) (V c main_v11) (V c main_v12) (((cfg2.win 3).blk t).view.emb j)
  have hj0 : ((((cfg2.win 3).blk t).view.emb j) 0).val = t.val * 1024 + (j 0).val := by
    show win2_3.index t (0 : Fin 2) * 1024 + 1 * (j 0).val = _; omega
  have hj1 : ((((cfg2.win 3).blk t).view.emb j) 1).val = (j 1).val := by
    show win2_3.index t (1 : Fin 2) * 1024 + 1 * (j 1).val = _; omega
  refine LinearRows.rows_block _ _ _ _ _ _ j _ (fun e => ?_) (fun e => ?_) ?_
  · exact read_x V c t _ _ hj0 rfl
  · exact read_w V c t _ _ hj1 rfl
  · exact read_b V c t _ _ rfl hj1

/-- An index of the output is in point t's block iff its row is among rows 1024·t … 1024·t + 1023. -/
theorem mem_blk (t : Fin cfg2.N) (i : S8192x1024.Idx) :
    i ∈ ((cfg2.win 3).blk t).view.set ↔ ∀ ax : Fin 2, win2_3.index t ax * S1024x1024.size ax ≤ (i ax).val
      ∧ (i ax).val < win2_3.index t ax * S1024x1024.size ax + S1024x1024.size ax := by
  show i ∈ ((View.whole main_v13).slice (win2_3.rect t)).set ↔ _
  rw [View.set_slice_whole, Rect.mem_set_unit]
  exact Iff.rfl

/-- Every entry of the output is written back by the point of its block of rows. -/
theorem cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have ht : (i 0).val / 1024 < cfg2.N := by rw [show cfg2.N = 8 from N_2]; omega
  obtain ⟨-, -, -, -, -, -, e30, e31⟩ := idx_facts ⟨(i 0).val / 1024, ht⟩
  refine ⟨⟨(i 0).val / 1024, ht⟩, flush2_3 _, ?_⟩
  rw [mem_blk]
  intro ax
  match ax with
  | ⟨0, _⟩ =>
    show win2_3.index ⟨(i 0).val / 1024, ht⟩ (0 : Fin 2) * 1024 ≤ (i 0).val
      ∧ (i 0).val < win2_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win2_3.index ⟨(i 0).val / 1024, ht⟩ (1 : Fin 2) * 1024 ≤ (i 1).val
      ∧ (i 1).val < win2_3.index ⟨(i 0).val / 1024, ht⟩ (1 : Fin 2) * 1024 + 1024
    rw [e31]; omega

/-- The output array after the launch: the linear layer of the three arrays as the launch finds them. -/
theorem final (c : Dev nD) :
    (dat2 V c).arrAt 3 cfg2.N
      = LinearRows.rows (R := 8192) (J := 1024) (E := 1024) (V c main_v10) (V c main_v11) (V c main_v12) :=
  (dat2 V c).arrAt_eq_of_cover 3 _ (fun t _ => flushed_eq V c t) (cover)

end Cert.KernelIdeal.Linear2

end
-- ==== Proof.Linear4.lean ====
/-
  Launch 4 of the kernel program: a linear layer. Its grid has 8 points; point t is given rows 1024·t … 1024·t + 1023 of
  the input matrix [8192, 1024], the whole weight matrix and the bias row, and writes rows 1024·t … of the output. On its
  blocks the body computes "rows of X times the transpose of W plus the bias row"; restricting X to a block of rows
  restricts that to the same rows, and the eight blocks tile the output, so the output array ends as that function of
  the three whole arrays as the launch finds them.
-/
import proofs.«132513_j14877766714149_2_alg».proof.Proof.Gen.KernelIdeal.Frame
import proofs.«132513_j14877766714149_2_alg».proof.Proof.LibLinearRows

set_option maxRecDepth 16384

noncomputable section

open scoped BigOperators

namespace Cert.KernelIdeal.Linear4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- On its three blocks the body computes rows of X times the transpose of W plus the bias row. -/
theorem pay_eq (x0 : Vec Ideal S1024x1024 .bf16) (x1 : Vec Ideal S1024x1024 .bf16) (x2 : Vec Ideal S1x1024 .f32) :
    k4_pay1 (F := Ideal) x0 x1 x2 = LinearRows.rows x0 x1 x2 := by
  unfold k4_pay1
  simp only [shapeCast_self]
  exact LinearRows.body_eq dot_S1024x1024_S1024x1024_S1024x1024_1_1_0_0_n_n rfl none broadcasts_S1x1024_S1024x1024 _ _ _

/-- The index maps over the grid: the input and output blocks are block-row t, the weights and bias whole. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (r, e) of the input's block at point t is entry (1024·t + r, e) of the input. -/
theorem read_x (c : Dev nD) (t : Fin cfg4.N) (y : S1024x1024.Idx) (i : S8192x1024.Idx)
    (h0 : (i 0).val = t.val * 1024 + (y 0).val) (h1 : (i 1).val = (y 1).val) :
    iblk4 V c 0 t y = V c main_v16 i := by
  obtain ⟨e00, e01, -⟩ := idx_facts t
  show V c main_v16 (((cfg4.win 0).blk t).view.emb y) = V c main_v16 i
  refine congrArg (V c main_v16) (funext fun ax => Fin.ext ?_)
  match ax with
  | ⟨0, _⟩ => show win4_0.index t (0 : Fin 2) * 1024 + 1 * (y 0).val = (i 0).val; omega
  | ⟨1, _⟩ => show win4_0.index t (1 : Fin 2) * 1024 + 1 * (y 1).val = (i 1).val; omega

/-- The weights' block at any point is the whole weight matrix. -/
theorem read_w (c : Dev nD) (t : Fin cfg4.N) (y : S1024x1024.Idx) (i : S1024x1024.Idx)
    (h0 : (i 0).val = (y 0).val) (h1 : (i 1).val = (y 1).val) :
    iblk4 V c 1 t y = V c main_v17 i := by
  obtain ⟨-, -, e10, e11, -⟩ := idx_facts t
  show V c main_v17 (((cfg4.win 1).blk t).view.emb y) = V c main_v17 i
  refine congrArg (V c main_v17) (funext fun ax => Fin.ext ?_)
  match ax with
  | ⟨0, _⟩ => show win4_1.index t (0 : Fin 2) * 1024 + 1 * (y 0).val = (i 0).val; omega
  | ⟨1, _⟩ => show win4_1.index t (1 : Fin 2) * 1024 + 1 * (y 1).val = (i 1).val; omega

/-- The bias's block at any point is the whole bias row. -/
theorem read_b (c : Dev nD) (t : Fin cfg4.N) (y : S1x1024.Idx) (i : S1x1024.Idx)
    (h0 : (i 0).val = (y 0).val) (h1 : (i 1).val = (y 1).val) :
    iblk4 V c 2 t y = V c main_v18 i := by
  obtain ⟨-, -, -, -, e20, e21, -⟩ := idx_facts t
  show V c main_v18 (((cfg4.win 2).blk t).view.emb y) = V c main_v18 i
  refine congrArg (V c main_v18) (funext fun ax => Fin.ext ?_)
  match ax with
  | ⟨0, _⟩ => show win4_2.index t (0 : Fin 2) * 1 + 1 * (y 0).val = (i 0).val; omega
  | ⟨1, _⟩ => show win4_2.index t (1 : Fin 2) * 1024 + 1 * (y 1).val = (i 1).val; omega

/-- What point t writes back is block t of the linear layer of the three arrays as the launch finds them. -/
theorem flushed_eq (c : Dev nD) (t : Fin cfg4.N) :
    (dat4 V c).flushed 3 t = ((cfg4.win 3).blk t).view.read (Elt Ideal)
      (LinearRows.rows (R := 8192) (J := 1024) (E := 1024) (V c main_v16) (V c main_v17) (V c main_v18)) := by
  show (cfg4.win 3).cut (grid4.coords t) ((dat4 V c).after 3 t) = _
  rw [after4_3]
  unfold out4_3
  rw [View.canon_unit_zero hz]
  simp only [View.ld_unit_zero (S := S1024x1024) hz, View.ld_unit_zero (S := S1x1024) hz]
  rw [pay_eq]
  obtain ⟨-, -, -, -, -, -, e30, e31⟩ := idx_facts t
  funext j
  show LinearRows.rows (iblk4 V c 0 t) (iblk4 V c 1 t) (iblk4 V c 2 t) j
    = LinearRows.rows (R := 8192) (J := 1024) (E := 1024) (V c main_v16) (V c main_v17) (V c main_v18) (((cfg4.win 3).blk t).view.emb j)
  have hj0 : ((((cfg4.win 3).blk t).view.emb j) 0).val = t.val * 1024 + (j 0).val := by
    show win4_3.index t (0 : Fin 2) * 1024 + 1 * (j 0).val = _; omega
  have hj1 : ((((cfg4.win 3).blk t).view.emb j) 1).val = (j 1).val := by
    show win4_3.index t (1 : Fin 2) * 1024 + 1 * (j 1).val = _; omega
  refine LinearRows.rows_block _ _ _ _ _ _ j _ (fun e => ?_) (fun e => ?_) ?_
  · exact read_x V c t _ _ hj0 rfl
  · exact read_w V c t _ _ hj1 rfl
  · exact read_b V c t _ _ rfl hj1

/-- An index of the output is in point t's block iff its row is among rows 1024·t … 1024·t + 1023. -/
theorem mem_blk (t : Fin cfg4.N) (i : S8192x1024.Idx) :
    i ∈ ((cfg4.win 3).blk t).view.set ↔ ∀ ax : Fin 2, win4_3.index t ax * S1024x1024.size ax ≤ (i ax).val
      ∧ (i ax).val < win4_3.index t ax * S1024x1024.size ax + S1024x1024.size ax := by
  show i ∈ ((View.whole main_v19).slice (win4_3.rect t)).set ↔ _
  rw [View.set_slice_whole, Rect.mem_set_unit]
  exact Iff.rfl

/-- Every entry of the output is written back by the point of its block of rows. -/
theorem cover (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have ht : (i 0).val / 1024 < cfg4.N := by rw [show cfg4.N = 8 from N_4]; omega
  obtain ⟨-, -, -, -, -, -, e30, e31⟩ := idx_facts ⟨(i 0).val / 1024, ht⟩
  refine ⟨⟨(i 0).val / 1024, ht⟩, flush4_3 _, ?_⟩
  rw [mem_blk]
  intro ax
  match ax with
  | ⟨0, _⟩ =>
    show win4_3.index ⟨(i 0).val / 1024, ht⟩ (0 : Fin 2) * 1024 ≤ (i 0).val
      ∧ (i 0).val < win4_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win4_3.index ⟨(i 0).val / 1024, ht⟩ (1 : Fin 2) * 1024 ≤ (i 1).val
      ∧ (i 1).val < win4_3.index ⟨(i 0).val / 1024, ht⟩ (1 : Fin 2) * 1024 + 1024
    rw [e31]; omega

/-- The output array after the launch: the linear layer of the three arrays as the launch finds them. -/
theorem final (c : Dev nD) :
    (dat4 V c).arrAt 3 cfg4.N
      = LinearRows.rows (R := 8192) (J := 1024) (E := 1024) (V c main_v16) (V c main_v17) (V c main_v18) :=
  (dat4 V c).arrAt_eq_of_cover 3 _ (fun t _ => flushed_eq V c t) (cover)

end Cert.KernelIdeal.Linear4

end
-- ==== Proof.MhaSpec.lean ====
/-
  Multi-head attention on the extended reals, entry by entry.

  An activation X of extents [4, 2048, 1024] is read by its coordinates (n, s, e). A linear layer sends X to
  Y(n, s, j) = Σ_e X(n, s, e) · W(j, e) + b(j). The 1024 columns are 16 heads of 64 lanes, column h·64 + d being lane d
  of head h. For one batch entry n and one head h the score of query row s against key row t is
  (Σ_d q(n, s, h·64+d) · k(n, t, h·64+d)) · 2⁻³; the weights of row s are the exponentials of its scores less their
  maximum, divided by the sum of those exponentials; lane d of the head's output at row s is Σ_t weight(s, t) ·
  v(n, t, h·64+d). The heads' outputs laid side by side are sent through a last linear layer.

  Dividing by the square root of 64 is multiplying by 2⁻³, on every extended real: √64 = 8 exactly.
-/
import Idealize.ShloMosaic.PureOps.Ideal
import Idealize.ShloMosaic.Lib.ValueIdx

noncomputable section

open scoped BigOperators

namespace MhaSpec

open Idealize.ShloMosaic Idealize.ShloMosaic.ValueIdx

/-- An activation array of extents [4, 2048, 1024], by its three coordinates. -/
abbrev Act : Type := Fin 4 → Fin 2048 → Fin 1024 → EReal

/-- A linear layer: Y(n, s, j) = Σ_e X(n, s, e) · W(j, e) + b(j). -/
def lin (X : Act) (W : Fin 1024 → Fin 1024 → EReal) (b : Fin 1024 → EReal) : Act :=
  fun n s j => (∑ e : Fin 1024, X n s e * W j e) + b j

/-- Lane d of head h is column h·64 + d. -/
def col (h : Fin 16) (d : Fin 64) : Fin 1024 :=
  ⟨h.val * 64 + d.val, by have := h.isLt; have := d.isLt; omega⟩

/-- The head a column belongs to. -/
def headOf (j : Fin 1024) : Fin 16 := ⟨j.val / 64, by have := j.isLt; omega⟩

/-- The lane of a column within its head. -/
def laneOf (j : Fin 1024) : Fin 64 := ⟨j.val % 64, Nat.mod_lt _ (by decide)⟩

theorem col_headOf_laneOf (j : Fin 1024) : col (headOf j) (laneOf j) = j :=
  Fin.ext (by show j.val / 64 * 64 + j.val % 64 = j.val; omega)

theorem headOf_col (h : Fin 16) (d : Fin 64) : headOf (col h d) = h :=
  Fin.ext (by show (h.val * 64 + d.val) / 64 = h.val; have := d.isLt; omega)

theorem laneOf_col (h : Fin 16) (d : Fin 64) : laneOf (col h d) = d :=
  Fin.ext (by show (h.val * 64 + d.val) % 64 = d.val; have := d.isLt; omega)

/-- The scaled score of query row s against key row t, in batch entry n and head h. -/
def score (q k : Act) (n : Fin 4) (h : Fin 16) (s t : Fin 2048) : EReal :=
  (∑ d : Fin 64, q n s (col h d) * k n t (col h d)) * Ideal.ofBits .f32 0x3E000000#32

/-- The maximum of a row of 2048 scores, folded from -∞. -/
def rowMax (f : Fin 2048 → EReal) : EReal :=
  (Finset.univ : Finset (Fin 2048)).fold max (Ideal.ofBits .f32 0xFF800000#32) f

/-- The exponential of a score less its row's maximum. -/
def expw (q k : Act) (n : Fin 4) (h : Fin 16) (s t : Fin 2048) : EReal :=
  Ideal.exp (score q k n h s t - rowMax (score q k n h s))

/-- The softmax weight of key row t for query row s. -/
def weight (q k : Act) (n : Fin 4) (h : Fin 16) (s t : Fin 2048) : EReal :=
  Ideal.div (expw q k n h s t) (∑ t' : Fin 2048, expw q k n h s t')

/-- Lane d of head h's output at row s: the weighted sum of the value rows. -/
def head (q k v : Act) (n : Fin 4) (h : Fin 16) (s : Fin 2048) (d : Fin 64) : EReal :=
  ∑ t : Fin 2048, weight q k n h s t * v n t (col h d)

/-- The heads' outputs laid side by side: column j is lane (j mod 64) of head (j div 64). -/
def merged (q k v : Act) : Act :=
  fun n s j => head q k v n (headOf j) s (laneOf j)

/-- The whole layer: three projections, the attention of every head, the output projection. -/
def mha (x y z : Act) (Wq : Fin 1024 → Fin 1024 → EReal) (bq : Fin 1024 → EReal)
    (Wk : Fin 1024 → Fin 1024 → EReal) (bk : Fin 1024 → EReal)
    (Wv : Fin 1024 → Fin 1024 → EReal) (bv : Fin 1024 → EReal)
    (Wo : Fin 1024 → Fin 1024 → EReal) (bo : Fin 1024 → EReal) : Act :=
  lin (merged (lin x Wq bq) (lin y Wk bk) (lin z Wv bv)) Wo bo

/-! ## The arrays as the programs hold them -/

/-- An array of extents [4, 2048, 1024] read by coordinates. -/
def act (x : (⟨3, ![4, 2048, 1024]⟩ : Shape).Idx → EReal) : Act := fun n s e => x (ix3 n s e)

/-- A weight matrix [1024, 1024] read by coordinates. -/
def mat (w : (⟨2, ![1024, 1024]⟩ : Shape).Idx → EReal) : Fin 1024 → Fin 1024 → EReal := fun j e => w (ix2 j e)

/-- A bias vector [1024] read by its coordinate. -/
def vec (b : (⟨1, ![1024]⟩ : Shape).Idx → EReal) : Fin 1024 → EReal := fun j => b (ix1 j)

/-- The layer's result as an array, from the eleven argument arrays. -/
def result (x0 x1 x2 : (⟨3, ![4, 2048, 1024]⟩ : Shape).Idx → EReal)
    (x3 : (⟨2, ![1024, 1024]⟩ : Shape).Idx → EReal) (x4 : (⟨1, ![1024]⟩ : Shape).Idx → EReal)
    (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal)
    (x9 : (⟨2, ![1024, 1024]⟩ : Shape).Idx → EReal) (x10 : (⟨1, ![1024]⟩ : Shape).Idx → EReal) :
    (⟨3, ![4, 2048, 1024]⟩ : Shape).Idx → EReal :=
  fun i => mha (act x0) (act x1) (act x2) (mat x3) (vec x4) (mat x5) (vec x6) (mat x7) (vec x8) (mat x9) (vec x10)
    (i 0) (i 1) (i 2)

/-! ## The scale, and two absorptions -/

/-- The word of 64.0 denotes the real 64. -/
theorem word_64 : Ideal.ofBits .f32 0x42800000#32 = ((64 : ℝ) : EReal) := by
  simp [Ideal.ofBits, Ideal.ieee, -EReal.coe_mul]; norm_num

/-- The word of 0.125 denotes the real 1/8. -/
theorem word_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]; exact Real.sqrt_sq (by norm_num)

/-- Dividing by √64 is multiplying by 1/8, on every extended real. -/
theorem div_sqrt_64 (x : EReal) :
    Ideal.div x (Ideal.sqrt (Ideal.ofBits .f32 0x42800000#32)) = x * Ideal.ofBits .f32 0x3E000000#32 := by
  rw [word_64, word_eighth, Ideal.sqrt_coe, if_neg (by norm_num), sqrt_64, Ideal.div_coe (by norm_num)]

/-- A fold of max from b already dominates b. -/
theorem max_fold_self {ι : Type} (s : Finset ι) (b : EReal) (f : ι → EReal) :
    max b (s.fold max b f) = s.fold max b f :=
  max_eq_right ((Finset.le_fold_max b).2 (Or.inl le_rfl))

end MhaSpec

end
-- ==== Proof.MhaArrays.lean ====
/-
  The attention of every head as an array: from the three projected arrays of extents [4, 2048, 1024], the array whose
  entry (n, s, j) is lane (j mod 64) of head (j div 64)'s output at row s of batch entry n.
-/
import proofs.«132513_j14877766714149_2_alg».proof.Proof.MhaSpec

noncomputable section

namespace MhaSpec

open Idealize.ShloMosaic Idealize.ShloMosaic.ValueIdx

/-- The heads' outputs laid side by side, as an array, from the three projected arrays. -/
def mergedArr (q k v : (⟨3, ![4, 2048, 1024]⟩ : Shape).Idx → EReal) : (⟨3, ![4, 2048, 1024]⟩ : Shape).Idx → EReal :=
  fun i => merged (act q) (act k) (act v) (i 0) (i 1) (i 2)

theorem mergedArr_apply (q k v : (⟨3, ![4, 2048, 1024]⟩ : Shape).Idx → EReal) (n : Fin 4) (s : Fin 2048) (j : Fin 1024) :
    mergedArr q k v (ix3 n s j) = merged (act q) (act k) (act v) n s j := rfl

end MhaSpec

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftmaxHead.lean ====
/-
  One attention head on matrices, at the ideal values, for any extents: for queries q [a, d], keys k and values v [b, d]
  and a scale κ, the scaled scores S(s, t) = (Σ_x q(s, x) · k(t, x)) · κ; a row's scores less the row's maximum (folded
  from a starting word), exponentiated; those exponentials divided by their row sums; and the product of these weights
  with v. Each step is read at an entry as a kernel computes it: the product into a zero accumulator, the row
  reductions stood up as columns and laid back along the rows.
-/
import proofs.«132513_j14877766714149_2_alg».proof.Proof.LibTransProduct
import proofs.«132513_j14877766714149_2_alg».proof.Proof.LibSoftLayout
import proofs.«132513_j14877766714149_2_alg».proof.Proof.LibRowOps

noncomputable section

open scoped BigOperators

namespace SoftmaxHead

open Idealize.ShloMosaic Idealize.ShloMosaic.ValueIdx

/-- The scaled score of query row s against key row t. -/
def score {a b d : Nat} (κ : EReal) (q : Fin a → Fin d → EReal) (k : Fin b → Fin d → EReal) (s : Fin a) (t : Fin b) : EReal :=
  (∑ x : Fin d, q s x * k t x) * κ

/-- The maximum of a row, folded from the word w. -/
def rowMax {b : Nat} (w : BitVec 32) (f : Fin b → EReal) : EReal :=
  (Finset.univ : Finset (Fin b)).fold max (Ideal.ofBits .f32 w) f

/-- The exponential of a score less its row's maximum. -/
def expw {a b d : Nat} (κ : EReal) (w : BitVec 32) (q : Fin a → Fin d → EReal) (k : Fin b → Fin d → EReal)
    (s : Fin a) (t : Fin b) : EReal :=
  Ideal.exp (score κ q k s t - rowMax w (score κ q k s))

/-- The softmax weight of key row t for query row s. -/
def weight {a b d : Nat} (κ : EReal) (w : BitVec 32) (q : Fin a → Fin d → EReal) (k : Fin b → Fin d → EReal)
    (s : Fin a) (t : Fin b) : EReal :=
  Ideal.div (expw κ w q k s t) (∑ t' : Fin b, expw κ w q k s t')

/-- The head's output: the weighted sum of the value rows. -/
def out {a b d : Nat} (κ : EReal) (w : BitVec 32) (q : Fin a → Fin d → EReal) (k v : Fin b → Fin d → EReal)
    (s : Fin a) (x : Fin d) : EReal :=
  ∑ t : Fin b, weight κ w q k s t * v t x

/-- The scores as a kernel computes them: q · kᵀ into a zero accumulator, times the splat scale. -/
theorem scores_apply {a b d : Nat} {φ₁ φ₂ : FTy} (D : DotDims ⟨2, ![a, d]⟩ ⟨2, ![b, d]⟩ ⟨2, ![a, b]⟩)
    (hD : D = DotDims.transposedRhs a d b) (prec : Option ContractPrecision) (κ : EReal)
    (q : FVec Ideal ⟨2, ![a, d]⟩ φ₁) (k : FVec Ideal ⟨2, ![b, d]⟩ φ₂) (s : Fin a) (t : Fin b) :
    mulf (matmul D prec q k (constant ⟨2, ![a, b]⟩ .f32 0x00000000#32)) (broadcast ⟨2, ![a, b]⟩ κ : FVec Ideal ⟨2, ![a, b]⟩ .f32) (ix2 s t)
      = score κ (fun s x => q (ix2 s x)) (fun t x => k (ix2 t x)) s t := by
  rw [mulf_apply, TransProduct.matmul_apply D hD prec q k s t, broadcast_apply]
  rfl

/-- A matrix less its rows' maxima: the row maxima stood up as a column and laid back along the rows. -/
theorem sub_rowmax_apply {a b : Nat} (S : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hcol : (⟨1, ![a]⟩ : Shape).ShapeCasts ⟨2, ![a, 1]⟩) (hbc : (⟨2, ![a, 1]⟩ : Shape).Broadcasts ⟨2, ![a, b]⟩)
    (s : Fin a) (t : Fin b) :
    subf S (broadcastTo ⟨2, ![a, b]⟩ (shapeCast ⟨2, ![a, 1]⟩
        (multiReduction .maximumf [1] ⟨1, ![a]⟩ S 0xFF800000#32 hred hφ hacc) hcol) hbc) (ix2 s t)
      = S (ix2 s t) - rowMax 0xFF800000#32 (fun t' => S (ix2 s t')) := by
  rw [subf_apply, RowOps.col_to_apply hbc _ s t, SoftLayout.vec_col_cast_apply hcol _ s (0 : Fin 1),
    SoftLayout.rowmax_apply S hred hφ hacc s]
  rfl

/-- A matrix divided by its rows' sums: the row sums stood up as a column and laid back along the rows. -/
theorem div_rowsum_apply {a b : Nat} (E : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hcol : (⟨1, ![a]⟩ : Shape).ShapeCasts ⟨2, ![a, 1]⟩) (hbc : (⟨2, ![a, 1]⟩ : Shape).Broadcasts ⟨2, ![a, b]⟩)
    (s : Fin a) (t : Fin b) :
    divf E (broadcastTo ⟨2, ![a, b]⟩ (shapeCast ⟨2, ![a, 1]⟩
        (multiReduction .add [1] ⟨1, ![a]⟩ E 0x00000000#32 hred hφ hacc) hcol) hbc) (ix2 s t)
      = Ideal.div (E (ix2 s t)) (∑ t' : Fin b, E (ix2 s t')) := by
  rw [divf_apply, RowOps.col_to_apply hbc _ s t, SoftLayout.vec_col_cast_apply hcol _ s (0 : Fin 1),
    SoftLayout.rowsum_apply E hred hφ hacc s]

/-- A head's output at a row depends on the queries only through that row. -/
theorem out_row {a a' b d : Nat} (κ : EReal) (w : BitVec 32) (q : Fin a → Fin d → EReal) (q' : Fin a' → Fin d → EReal)
    (k v : Fin b → Fin d → EReal) (s : Fin a) (s' : Fin a') (h : q s = q' s') (x : Fin d) :
    out κ w q k v s x = out κ w q' k v s' x := by
  unfold out weight expw score
  rw [h]

/-- The weights as a kernel computes them from q and k: scaled scores, less the row maxima, exponentiated, divided by
    the row sums. -/
theorem weights_apply {a b d : Nat} {φ₁ φ₂ : FTy} (D : DotDims ⟨2, ![a, d]⟩ ⟨2, ![b, d]⟩ ⟨2, ![a, b]⟩)
    (hD : D = DotDims.transposedRhs a d b) (prec : Option ContractPrecision) (κ : EReal)
    (q : FVec Ideal ⟨2, ![a, d]⟩ φ₁) (k : FVec Ideal ⟨2, ![b, d]⟩ φ₂)
    (hred : (⟨2, ![a, b]⟩ : Shape).Reduces [1] ⟨1, ![a]⟩) (hφ : FKind.Formats .f32)
    (hmax : (0xFF800000#32 : BitVec 32) = 0xFF800000#32) (hsum : (0x00000000#32 : BitVec 32) = 0x00000000#32)
    (hcol : (⟨1, ![a]⟩ : Shape).ShapeCasts ⟨2, ![a, 1]⟩) (hbc : (⟨2, ![a, 1]⟩ : Shape).Broadcasts ⟨2, ![a, b]⟩)
    (s : Fin a) (t : Fin b) :
    divf
      (exp (subf (mulf (matmul D prec q k (constant ⟨2, ![a, b]⟩ .f32 0x00000000#32)) (broadcast ⟨2, ![a, b]⟩ κ : FVec Ideal ⟨2, ![a, b]⟩ .f32))
        (broadcastTo ⟨2, ![a, b]⟩ (shapeCast ⟨2, ![a, 1]⟩ (multiReduction .maximumf [1] ⟨1, ![a]⟩
          (mulf (matmul D prec q k (constant ⟨2, ![a, b]⟩ .f32 0x00000000#32)) (broadcast ⟨2, ![a, b]⟩ κ : FVec Ideal ⟨2, ![a, b]⟩ .f32))
          0xFF800000#32 hred hφ hmax) hcol) hbc)))
      (broadcastTo ⟨2, ![a, b]⟩ (shapeCast ⟨2, ![a, 1]⟩ (multiReduction .add [1] ⟨1, ![a]⟩
        (exp (subf (mulf (matmul D prec q k (constant ⟨2, ![a, b]⟩ .f32 0x00000000#32)) (broadcast ⟨2, ![a, b]⟩ κ : FVec Ideal ⟨2, ![a, b]⟩ .f32))
          (broadcastTo ⟨2, ![a, b]⟩ (shapeCast ⟨2, ![a, 1]⟩ (multiReduction .maximumf [1] ⟨1, ![a]⟩
            (mulf (matmul D prec q k (constant ⟨2, ![a, b]⟩ .f32 0x00000000#32)) (broadcast ⟨2, ![a, b]⟩ κ : FVec Ideal ⟨2, ![a, b]⟩ .f32))
            0xFF800000#32 hred hφ hmax) hcol) hbc)))
        0x00000000#32 hred hφ hsum) hcol) hbc) (ix2 s t)
      = weight κ 0xFF800000#32 (fun s x => q (ix2 s x)) (fun t x => k (ix2 t x)) s t := by
  generalize hSdef : mulf (matmul D prec q k (constant ⟨2, ![a, b]⟩ .f32 0x00000000#32))
    (broadcast ⟨2, ![a, b]⟩ κ : FVec Ideal ⟨2, ![a, b]⟩ .f32) = S
  have hS : ∀ s t, S (ix2 s t) = score κ (fun s x => q (ix2 s x)) (fun t x => k (ix2 t x)) s t := fun s t => by
    rw [← hSdef]; exact scores_apply D hD prec κ q k s t
  generalize hEdef : exp (subf S (broadcastTo ⟨2, ![a, b]⟩ (shapeCast ⟨2, ![a, 1]⟩
    (multiReduction .maximumf [1] ⟨1, ![a]⟩ S 0xFF800000#32 hred hφ hmax) hcol) hbc)) = E
  have hE : ∀ s t, E (ix2 s t) = expw κ 0xFF800000#32 (fun s x => q (ix2 s x)) (fun t x => k (ix2 t x)) s t := fun s t => by
    rw [← hEdef]
    show Ideal.exp (subf S (broadcastTo ⟨2, ![a, b]⟩ (shapeCast ⟨2, ![a, 1]⟩
      (multiReduction .maximumf [1] ⟨1, ![a]⟩ S 0xFF800000#32 hred hφ hmax) hcol) hbc) (ix2 s t)) = _
    rw [sub_rowmax_apply S hred hφ hmax hcol hbc s t, hS s t,
      show (fun t' => S (ix2 s t')) = score κ (fun s x => q (ix2 s x)) (fun t x => k (ix2 t x)) s from funext fun t' => hS s t']
    rfl
  rw [div_rowsum_apply E hred hφ hsum hcol hbc s t, hE s t, Finset.sum_congr rfl fun t' _ => hE s t']
  rfl

end SoftmaxHead

end
-- ==== Proof.AttnHead.lean ====
/-
  One point of the attention launch. The body is given a block of 512 query rows [1, 512, 1024] and the whole key and
  value arrays of its batch entry [1, 2048, 1024]. For each of the 16 heads it reads lanes 64·h … 64·h + 63 of the
  three, computes the head — scaled scores, softmax along the keys, weights times values — and stores the result into
  the same lanes of its output block. The sixteen stores are spelled differently in the program's text but are one
  function of the three slices; the output block is therefore one function of the three input blocks, entry by entry.
-/
import proofs.«132513_j14877766714149_2_alg».proof.Proof.Gen.KernelIdeal.Skeleton
import proofs.«132513_j14877766714149_2_alg».proof.Proof.LibSoftmaxHead
import proofs.«132513_j14877766714149_2_alg».proof.Proof.MhaSpec

set_option maxRecDepth 16384

noncomputable section

open scoped BigOperators

namespace Cert.KernelIdeal.AttnHead

open Cert.KernelIdeal Cert.KernelIdeal.Gen
open Idealize.ShloMosaic Idealize.ShloMosaic.TcCoe Idealize.ShloMosaic.ValueIdx Idealize.SL.Sem

/-- A slice [1, a, d] read by its row and lane. -/
def mat3 {a d : Nat} (x : (⟨3, ![1, a, d]⟩ : Shape).Idx → EReal) : Fin a → Fin d → EReal :=
  fun s l => x (ix3 (0 : Fin 1) s l)

/-- The first head's store, at an entry: the head of its three slices. -/
theorem head_apply (q : Vec Ideal S1x512x64 .bf16) (k v : Vec Ideal S1x2048x64 .bf16) (z : Fin 1) (s : Fin 512) (x : Fin 64) :
    k3_pay2 (F := Ideal) q k v (ix3 z s x)
      = SoftmaxHead.out (Ideal.ofBits .f32 0x3E000000#32) 0xFF800000#32 (mat3 q) (mat3 k) (mat3 v) s x := by
  unfold k3_pay2
  refine (SoftLayout.add_lead_apply shapeCasts_S512x64_S1x512x64 _ z s x).trans ?_
  refine (RowOps.matmul_apply dot_S512x2048_S2048x64_S512x64_1_0_0_1_n_n rfl none _ _ s x).trans ?_
  unfold SoftmaxHead.out
  refine Finset.sum_congr rfl fun t _ => ?_
  refine congrArg₂ (· * ·) ?_ (SoftLayout.drop_lead_apply shapeCasts_S1x2048x64_S2048x64 v t x)
  refine (SoftmaxHead.weights_apply dot_S512x64_S2048x64_S512x2048_1_1_0_0_n_n rfl none
    (Ideal.ofBits .f32 0x3E000000#32) (shapeCast S512x64 q shapeCasts_S1x512x64_S512x64)
    (shapeCast S2048x64 k shapeCasts_S1x2048x64_S2048x64) reduces_S512x2048_S512 (.inl rfl) rfl rfl
    shapeCasts_S512_S512x1 broadcasts_S512x1_S512x2048 s t).trans ?_
  rw [show (fun (s : Fin 512) (x : Fin 64) => shapeCast S512x64 q shapeCasts_S1x512x64_S512x64 (ix2 s x)) = mat3 q from
      funext fun s => funext fun x => SoftLayout.drop_lead_apply shapeCasts_S1x512x64_S512x64 q s x,
    show (fun (t : Fin 2048) (x : Fin 64) => shapeCast S2048x64 k shapeCasts_S1x2048x64_S2048x64 (ix2 t x)) = mat3 k from
      funext fun t => funext fun x => SoftLayout.drop_lead_apply shapeCasts_S1x2048x64_S2048x64 k t x]

/-! The other fifteen heads' stores are the same function of their three slices. -/

section Heads
variable {F : FTy → Type} [FloatOps F]
theorem head1 (q : Vec F S1x512x64 .bf16) (k v : Vec F S1x2048x64 .bf16) :
    k3_pay4 (k3_pay3 q) k v = k3_pay2 q k v := rfl
theorem head2 (q : Vec F S1x512x64 .bf16) (k v : Vec F S1x2048x64 .bf16) :
    k3_pay8 (k3_pay5 v) (k3_pay6 q k) (k3_pay7 q k) = k3_pay2 q k v := rfl
theorem head3 (q : Vec F S1x512x64 .bf16) (k v : Vec F S1x2048x64 .bf16) :
    k3_pay10 (k3_pay9 q k v) = k3_pay2 q k v := rfl
theorem head4 (q : Vec F S1x512x64 .bf16) (k v : Vec F S1x2048x64 .bf16) :
    k3_pay11 q k v = k3_pay2 q k v := rfl
theorem head5 (q : Vec F S1x512x64 .bf16) (k v : Vec F S1x2048x64 .bf16) :
    k3_pay12 q k v = k3_pay2 q k v := rfl
theorem head6 (q : Vec F S1x512x64 .bf16) (k v : Vec F S1x2048x64 .bf16) :
    k3_pay15 (k3_pay13 v) (k3_pay14 q k) (FloatOps.ofBits .f32 0x3E000000#32) = k3_pay2 q k v := rfl
theorem head7 (q : Vec F S1x512x64 .bf16) (k v : Vec F S1x2048x64 .bf16) :
    k3_pay18 (k3_pay16 v) (k3_pay17 q k) = k3_pay2 q k v := rfl
theorem head8 (q : Vec F S1x512x64 .bf16) (k v : Vec F S1x2048x64 .bf16) :
    k3_pay19 q k v = k3_pay2 q k v := rfl
theorem head9 (q : Vec F S1x512x64 .bf16) (k v : Vec F S1x2048x64 .bf16) :
    k3_pay20 q k v = k3_pay2 q k v := rfl
theorem head10 (q : Vec F S1x512x64 .bf16) (k v : Vec F S1x2048x64 .bf16) :
    k3_pay23 (k3_pay21 q) (k3_pay22 k) v = k3_pay2 q k v := rfl
theorem head11 (q : Vec F S1x512x64 .bf16) (k v : Vec F S1x2048x64 .bf16) :
    k3_pay27 (k3_pay24 v) (k3_pay25 q k) (k3_pay26 q k) = k3_pay2 q k v := rfl
theorem head12 (q : Vec F S1x512x64 .bf16) (k v : Vec F S1x2048x64 .bf16) :
    k3_pay28 q k v = k3_pay2 q k v := rfl
theorem head13 (q : Vec F S1x512x64 .bf16) (k v : Vec F S1x2048x64 .bf16) :
    k3_pay29 q k v = k3_pay2 q k v := rfl
theorem head14 (q : Vec F S1x512x64 .bf16) (k v : Vec F S1x2048x64 .bf16) :
    k3_pay32 (k3_pay30 q) (k3_pay31 k) v = k3_pay2 q k v := rfl
theorem head15 (q : Vec F S1x512x64 .bf16) (k v : Vec F S1x2048x64 .bf16) :
    k3_pay1 (k3_pay33 v) (k3_pay34 q k) (k3_pay35 q k) = k3_pay2 q k v := rfl
end Heads

/-- The output block as one function of the three input blocks: entry (0, s, j) is lane (j mod 64) of head (j div 64)
    of the blocks' lanes 64·(j div 64) …, at row s. -/
def blockOut (x0 : (⟨3, ![1, 512, 1024]⟩ : Shape).Idx → EReal) (x1 x2 : (⟨3, ![1, 2048, 1024]⟩ : Shape).Idx → EReal) :
    (⟨3, ![1, 512, 1024]⟩ : Shape).Idx → EReal :=
  fun y => SoftmaxHead.out (Ideal.ofBits .f32 0x3E000000#32) 0xFF800000#32
    (fun s l => x0 (ix3 (0 : Fin 1) s (MhaSpec.col (MhaSpec.headOf (y 2)) l)))
    (fun t l => x1 (ix3 (0 : Fin 1) t (MhaSpec.col (MhaSpec.headOf (y 2)) l)))
    (fun t l => x2 (ix3 (0 : Fin 1) t (MhaSpec.col (MhaSpec.headOf (y 2)) l)))
    (y 1) (MhaSpec.laneOf (y 2))

/-- Lanes o … o + 63 of a block [1, a, 1024], for o = 64·h, read by row and lane: lane l is column h·64 + l. -/
theorem slice_mat3 {a : Nat} (h : Fin 16) (inb : ∀ ax, (![0, 0, h.val * 64] : Fin 3 → Nat) ax + (![1, a, 64] : Fin 3 → Nat) ax
      ≤ (⟨3, ![1, a, 1024]⟩ : Shape).size ax)
    (x : Vec Ideal ⟨3, ![1, a, 1024]⟩ .bf16) :
    mat3 (a := a) (d := 64) (View.ld (Val := Elt Ideal) (e' := .bf16) x (Rect.unit (s := ⟨3, ![1, a, 1024]⟩) ![0, 0, h.val * 64] ![1, a, 64] inb))
      = fun s l => x (ix3 (0 : Fin 1) s (MhaSpec.col h l)) := by
  funext s l
  show x ((Rect.unit (s := ⟨3, ![1, a, 1024]⟩) ![0, 0, h.val * 64] ![1, a, 64] inb).idx (ix3 (0 : Fin 1) s l)) = _
  refine congrArg x (funext fun ax => Fin.ext ?_)
  match ax with
  | ⟨0, _⟩ => show 0 + 1 * 0 = 0; rfl
  | ⟨1, _⟩ => show 0 + 1 * s.val = s.val; omega
  | ⟨2, _⟩ => show h.val * 64 + 1 * l.val = h.val * 64 + l.val; omega

/-- The head of lanes o … o + 63 of the three blocks, o = 64·h, is the output block's function there. -/
theorem piece_eq (h : Fin 16) (o : Nat) (ho : o = h.val * 64)
    (inbq : ∀ ax, (![0, 0, o] : Fin 3 → Nat) ax + S1x512x64.size ax ≤ S1x512x1024.size ax)
    (inbk : ∀ ax, (![0, 0, o] : Fin 3 → Nat) ax + S1x2048x64.size ax ≤ S1x2048x1024.size ax)
    (x0 : Vec Ideal S1x512x1024 .bf16) (x1 x2 : Vec Ideal S1x2048x1024 .bf16) (y : S1x512x64.Idx) :
    k3_pay2 (F := Ideal) (View.ld x0 (Rect.unit (s := S1x512x1024) ![0, 0, o] S1x512x64.size inbq))
        (View.ld x1 (Rect.unit (s := S1x2048x1024) ![0, 0, o] S1x2048x64.size inbk))
        (View.ld x2 (Rect.unit (s := S1x2048x1024) ![0, 0, o] S1x2048x64.size inbk)) y
      = blockOut x0 x1 x2 ((Rect.unit (s := S1x512x1024) ![0, 0, o] S1x512x64.size inbq).emb y) := by
  subst ho
  obtain ⟨z, s, l, rfl⟩ : ∃ (z : Fin 1) (s : Fin 512) (l : Fin 64), y = ix3 z s l := ⟨y 0, y 1, y 2, eq_ix3 y⟩
  have hemb : (Rect.unit (s := S1x512x1024) ![0, 0, h.val * 64] S1x512x64.size inbq).emb (ix3 z s l)
      = ix3 (0 : Fin 1) s (MhaSpec.col h l) := funext fun ax => Fin.ext (by
    match ax with
    | ⟨0, _⟩ => show 0 + 1 * z.val = 0; have := z.isLt; omega
    | ⟨1, _⟩ => show 0 + 1 * s.val = s.val; omega
    | ⟨2, _⟩ => show h.val * 64 + 1 * l.val = h.val * 64 + l.val; omega)
  rw [head_apply, hemb]
  unfold blockOut
  show _ = SoftmaxHead.out (Ideal.ofBits .f32 0x3E000000#32) 0xFF800000#32
    (fun s l' => x0 (ix3 (0 : Fin 1) s (MhaSpec.col (MhaSpec.headOf (MhaSpec.col h l)) l')))
    (fun t l' => x1 (ix3 (0 : Fin 1) t (MhaSpec.col (MhaSpec.headOf (MhaSpec.col h l)) l')))
    (fun t l' => x2 (ix3 (0 : Fin 1) t (MhaSpec.col (MhaSpec.headOf (MhaSpec.col h l)) l')))
    s (MhaSpec.laneOf (MhaSpec.col h l))
  rw [MhaSpec.headOf_col, MhaSpec.laneOf_col]
  have e0 := slice_mat3 (a := 512) h inbq x0
  have e1 := slice_mat3 (a := 2048) h inbk x1
  have e2 := slice_mat3 (a := 2048) h inbk x2
  rw [e0, e1, e2]

end Cert.KernelIdeal.AttnHead

end
-- ==== Proof.AttnRegion.lean ====
/-
  Launch 3 of the kernel program: the attention of every head. Its grid has 4 × 4 points; point t = 4·n + i is given rows
  512·i … 512·i + 511 of batch entry n of the projected queries and the whole of batch entry n of the projected keys and
  values, and writes the same rows of batch entry n of the output. The body's sixteen stores are the sixteen heads' lanes
  of one function of the three blocks; a head's output at a row needs only that row of the queries, so restricting the
  queries to a block of rows restricts the result to the same rows; the sixteen blocks tile the output. The output array
  ends as the heads' outputs laid side by side, computed from the three projected arrays as the launch finds them.
-/
import proofs.«132513_j14877766714149_2_alg».proof.Proof.Gen.KernelIdeal.Frame
import proofs.«132513_j14877766714149_2_alg».proof.Proof.MhaArrays
import proofs.«132513_j14877766714149_2_alg».proof.Proof.AttnHead

set_option maxRecDepth 16384

noncomputable section

open scoped BigOperators

namespace Cert.KernelIdeal.Attn

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)

/-- The specification's head is the head on matrices, of lanes 64·h … of the three activations at batch entry n. -/
theorem head_eq_out (q k v : MhaSpec.Act) (n : Fin 4) (h : Fin 16) (s : Fin 2048) (d : Fin 64) :
    MhaSpec.head q k v n h s d
      = SoftmaxHead.out (Ideal.ofBits .f32 0x3E000000#32) 0xFF800000#32 (fun s l => q n s (MhaSpec.col h l))
          (fun t l => k n t (MhaSpec.col h l)) (fun t l => v n t (MhaSpec.col h l)) s d := rfl

/-- The block function at entry (z, r, j) of a point's block is the heads' outputs side by side at entry (n, s, j) of the
    whole array, when row r of the queries' block is row s of batch entry n of the projected queries and the keys' and
    values' blocks are batch entry n of the projected keys and values. -/
theorem blockOut_eq (x0 : (⟨3, ![1, 512, 1024]⟩ : Shape).Idx → EReal) (x1 x2 : (⟨3, ![1, 2048, 1024]⟩ : Shape).Idx → EReal)
    (Q K W : (⟨3, ![4, 2048, 1024]⟩ : Shape).Idx → EReal)
    (z : Fin 1) (r : Fin 512) (j : Fin 1024) (n : Fin 4) (s : Fin 2048)
    (hq : ∀ j' : Fin 1024, x0 (ix3 (0 : Fin 1) r j') = Q (ix3 n s j'))
    (hk : ∀ (t : Fin 2048) (j' : Fin 1024), x1 (ix3 (0 : Fin 1) t j') = K (ix3 n t j'))
    (hv : ∀ (t : Fin 2048) (j' : Fin 1024), x2 (ix3 (0 : Fin 1) t j') = W (ix3 n t j')) :
    AttnHead.blockOut x0 x1 x2 (ix3 z r j) = MhaSpec.mergedArr Q K W (ix3 n s j) := by
  show SoftmaxHead.out (Ideal.ofBits .f32 0x3E000000#32) 0xFF800000#32
      (fun s' l => x0 (ix3 (0 : Fin 1) s' (MhaSpec.col (MhaSpec.headOf j) l)))
      (fun t l => x1 (ix3 (0 : Fin 1) t (MhaSpec.col (MhaSpec.headOf j) l)))
      (fun t l => x2 (ix3 (0 : Fin 1) t (MhaSpec.col (MhaSpec.headOf j) l))) r (MhaSpec.laneOf j)
    = SoftmaxHead.out (Ideal.ofBits .f32 0x3E000000#32) 0xFF800000#32
      (fun s' l => MhaSpec.act Q n s' (MhaSpec.col (MhaSpec.headOf j) l))
      (fun t l => MhaSpec.act K n t (MhaSpec.col (MhaSpec.headOf j) l))
      (fun t l => MhaSpec.act W n t (MhaSpec.col (MhaSpec.headOf j) l)) s (MhaSpec.laneOf j)
  rw [show (fun (t : Fin 2048) (l : Fin 64) => x1 (ix3 (0 : Fin 1) t (MhaSpec.col (MhaSpec.headOf j) l)))
        = fun t l => MhaSpec.act K n t (MhaSpec.col (MhaSpec.headOf j) l) from funext fun t => funext fun l => hk t _,
    show (fun (t : Fin 2048) (l : Fin 64) => x2 (ix3 (0 : Fin 1) t (MhaSpec.col (MhaSpec.headOf j) l)))
        = fun t l => MhaSpec.act W n t (MhaSpec.col (MhaSpec.headOf j) l) from funext fun t => funext fun l => hv t _]
  exact SoftmaxHead.out_row _ _ _ _ _ _ r s (funext fun l => hq _) _

variable (V : (c : Dev nD) → (b : Ref sig .tc) → Buf (Elt Ideal) ((c : Thread nD τ).loc b))

/-- The head of lanes o … o + 63 of the three blocks is the block function there (the head module's fact, by name). -/
theorem piece_at (h : Fin 16) (o : Nat) (ho : o = h.val * 64)
    (inbq : ∀ ax, (![0, 0, o] : Fin 3 → Nat) ax + S1x512x64.size ax ≤ S1x512x1024.size ax)
    (inbk : ∀ ax, (![0, 0, o] : Fin 3 → Nat) ax + S1x2048x64.size ax ≤ S1x2048x1024.size ax)
    (x0 : Vec Ideal S1x512x1024 .bf16) (x1 x2 : Vec Ideal S1x2048x1024 .bf16) (y : S1x512x64.Idx) :
    k3_pay2 (F := Ideal) (View.ld x0 (Rect.unit (s := S1x512x1024) ![0, 0, o] S1x512x64.size inbq))
        (View.ld x1 (Rect.unit (s := S1x2048x1024) ![0, 0, o] S1x2048x64.size inbk))
        (View.ld x2 (Rect.unit (s := S1x2048x1024) ![0, 0, o] S1x2048x64.size inbk)) y
      = AttnHead.blockOut x0 x1 x2 ((Rect.unit (s := S1x512x1024) ![0, 0, o] S1x512x64.size inbq).emb y) :=
  AttnHead.piece_eq h o ho inbq inbk x0 x1 x2 y

/-- What the body leaves in the output's staging buffer is the block function of the three input blocks. -/
theorem out_eq (c : Dev nD) (i : grid3.Coords) (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1x512x1024 .bf16) (harg5 : arg5.IsWhole)
    (x0 : Vec Ideal S1x512x1024 .bf16) (x1 x2 : Vec Ideal S1x2048x1024 .bf16) :
    out3_A_3 (F := Ideal) c i arg2 harg2 arg3 harg3 arg4 harg4 arg5 harg5 x0 x1 x2 = AttnHead.blockOut x0 x1 x2 := by
  unfold out3_A_3
  rw [View.read_writes_eq_canon _ _ _ (cover3_A_3 c i arg2 harg2 arg3 harg3 arg4 harg4 arg5 harg5 x0 x1 x2)]
  funext y
  refine View.canon_apply_of_pieces (AttnHead.blockOut x0 x1 x2) _ ?_ y
    (cover3_A_3 c i arg2 harg2 arg3 harg3 arg4 harg4 arg5 harg5 x0 x1 x2 y)
  unfold kernelRun3_A
  dsimp only
  sl_unfold_words
  simp only [View.readAt_eq_ld, harg2.read_unread, harg3.read_unread, harg4.read_unread]
  intro p hp
  simp only [List.mem_cons, List.not_mem_nil, or_false] at hp
  rcases hp with rfl | rfl | rfl | rfl | rfl | rfl | rfl | rfl | rfl | rfl | rfl | rfl | rfl | rfl | rfl | rfl
  · intro x; exact (congrFun (AttnHead.head15 _ _ _) x).trans (piece_at ⟨15, by decide⟩ 960 rfl _ _ x0 x1 x2 x)
  · intro x; exact (congrFun (AttnHead.head14 _ _ _) x).trans (piece_at ⟨14, by decide⟩ 896 rfl _ _ x0 x1 x2 x)
  · intro x; exact (congrFun (AttnHead.head13 _ _ _) x).trans (piece_at ⟨13, by decide⟩ 832 rfl _ _ x0 x1 x2 x)
  · intro x; exact (congrFun (AttnHead.head12 _ _ _) x).trans (piece_at ⟨12, by decide⟩ 768 rfl _ _ x0 x1 x2 x)
  · intro x; exact (congrFun (AttnHead.head11 _ _ _) x).trans (piece_at ⟨11, by decide⟩ 704 rfl _ _ x0 x1 x2 x)
  · intro x; exact (congrFun (AttnHead.head10 _ _ _) x).trans (piece_at ⟨10, by decide⟩ 640 rfl _ _ x0 x1 x2 x)
  · intro x; exact (congrFun (AttnHead.head9 _ _ _) x).trans (piece_at ⟨9, by decide⟩ 576 rfl _ _ x0 x1 x2 x)
  · intro x; exact (congrFun (AttnHead.head8 _ _ _) x).trans (piece_at ⟨8, by decide⟩ 512 rfl _ _ x0 x1 x2 x)
  · intro x; exact (congrFun (AttnHead.head7 _ _ _) x).trans (piece_at ⟨7, by decide⟩ 448 rfl _ _ x0 x1 x2 x)
  · intro x; exact (congrFun (AttnHead.head6 _ _ _) x).trans (piece_at ⟨6, by decide⟩ 384 rfl _ _ x0 x1 x2 x)
  · intro x; exact (congrFun (AttnHead.head5 _ _ _) x).trans (piece_at ⟨5, by decide⟩ 320 rfl _ _ x0 x1 x2 x)
  · intro x; exact (congrFun (AttnHead.head4 _ _ _) x).trans (piece_at ⟨4, by decide⟩ 256 rfl _ _ x0 x1 x2 x)
  · intro x; exact (congrFun (AttnHead.head3 _ _ _) x).trans (piece_at ⟨3, by decide⟩ 192 rfl _ _ x0 x1 x2 x)
  · intro x; exact (congrFun (AttnHead.head2 _ _ _) x).trans (piece_at ⟨2, by decide⟩ 128 rfl _ _ x0 x1 x2 x)
  · intro x; exact (congrFun (AttnHead.head1 _ _ _) x).trans (piece_at ⟨1, by decide⟩ 64 rfl _ _ x0 x1 x2 x)
  · intro x; exact piece_at ⟨0, by decide⟩ 0 rfl _ _ x0 x1 x2 x

/-- The index maps over the grid: point t is batch entry t / 4 and block of rows t % 4 for the queries and the output,
    batch entry t / 4 whole for the keys and the values. -/
theorem idx_facts : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = t.val % 4 ∧ win3_3.index t (2 : Fin 3) = 0 :=
  (by decide +kernel : ∀ t : Fin grid3.N, _)

/-- Entry (z, r, j) of the queries' block at point t is entry (t / 4, 512·(t % 4) + r, j) of the projected queries. -/
theorem read_q (c : Dev nD) (t : Fin cfg3.N) (z : Fin 1) (r : Fin 512) (j : Fin 1024) (n : Fin 4) (s : Fin 2048)
    (hn : n.val = t.val / 4) (hs : s.val = t.val % 4 * 512 + r.val) :
    iblk3 V c 0 t (ix3 z r j) = V c main_v4 (ix3 n s j) := by
  obtain ⟨e0, e1, e2, -⟩ := idx_facts t
  have hz := z.isLt
  show V c main_v4 (((cfg3.win 0).blk t).view.emb (ix3 z r j)) = V c main_v4 (ix3 n s j)
  refine congrArg (V c main_v4) (funext fun ax => Fin.ext ?_)
  match ax with
  | ⟨0, _⟩ => show win3_0.index t (0 : Fin 3) * 1 + 1 * z.val = n.val; omega
  | ⟨1, _⟩ => show win3_0.index t (1 : Fin 3) * 512 + 1 * r.val = s.val; omega
  | ⟨2, _⟩ => show win3_0.index t (2 : Fin 3) * 1024 + 1 * j.val = j.val; omega

/-- Entry (z, r, j) of the keys' block at point t is entry (t / 4, r, j) of the projected keys. -/
theorem read_k (c : Dev nD) (t : Fin cfg3.N) (z : Fin 1) (r : Fin 2048) (j : Fin 1024) (n : Fin 4)
    (hn : n.val = t.val / 4) :
    iblk3 V c 1 t (ix3 z r j) = V c main_v9 (ix3 n r j) := by
  obtain ⟨-, -, -, e0, e1, e2, -⟩ := idx_facts t
  have hz := z.isLt
  show V c main_v9 (((cfg3.win 1).blk t).view.emb (ix3 z r j)) = V c main_v9 (ix3 n r j)
  refine congrArg (V c main_v9) (funext fun ax => Fin.ext ?_)
  match ax with
  | ⟨0, _⟩ => show win3_1.index t (0 : Fin 3) * 1 + 1 * z.val = n.val; omega
  | ⟨1, _⟩ => show win3_1.index t (1 : Fin 3) * 2048 + 1 * r.val = r.val; omega
  | ⟨2, _⟩ => show win3_1.index t (2 : Fin 3) * 1024 + 1 * j.val = j.val; omega

/-- Entry (z, r, j) of the values' block at point t is entry (t / 4, r, j) of the projected values. -/
theorem read_v (c : Dev nD) (t : Fin cfg3.N) (z : Fin 1) (r : Fin 2048) (j : Fin 1024) (n : Fin 4)
    (hn : n.val = t.val / 4) :
    iblk3 V c 2 t (ix3 z r j) = V c main_v14 (ix3 n r j) := by
  obtain ⟨-, -, -, -, -, -, e0, e1, e2, -⟩ := idx_facts t
  have hz := z.isLt
  show V c main_v14 (((cfg3.win 2).blk t).view.emb (ix3 z r j)) = V c main_v14 (ix3 n r j)
  refine congrArg (V c main_v14) (funext fun ax => Fin.ext ?_)
  match ax with
  | ⟨0, _⟩ => show win3_2.index t (0 : Fin 3) * 1 + 1 * z.val = n.val; omega
  | ⟨1, _⟩ => show win3_2.index t (1 : Fin 3) * 2048 + 1 * r.val = r.val; omega
  | ⟨2, _⟩ => show win3_2.index t (2 : Fin 3) * 1024 + 1 * j.val = j.val; omega

/-- What point t writes back is block t of the heads' outputs side by side, of the three arrays as the launch finds them. -/
theorem flushed_eq (c : Dev nD) (t : Fin cfg3.N) :
    (dat3 V c).flushed 3 t = ((cfg3.win 3).blk t).view.read (Elt Ideal)
      (MhaSpec.mergedArr (V c main_v4) (V c main_v9) (V c main_v14)) := by
  show (cfg3.win 3).cut (grid3.coords t) ((dat3 V c).after 3 t) = _
  rw [after3_3]
  unfold outsAt3
  rw [out_eq]
  obtain ⟨-, -, -, -, -, -, -, -, -, e30, e31, e32⟩ := idx_facts t
  have htN : t.val < 16 := Nat.lt_of_lt_of_eq t.isLt (show cfg3.N = 16 from N_3)
  refine funext fun (y : S1x512x1024.Idx) => ?_
  obtain ⟨z, r, j, rfl⟩ : ∃ (z : Fin 1) (r : Fin 512) (j : Fin 1024), y = ix3 z r j := ⟨y 0, y 1, y 2, eq_ix3 y⟩
  have hz := z.isLt
  have hr := r.isLt
  have hemb : ((cfg3.win 3).blk t).view.emb (ix3 z r j)
      = ix3 (⟨t.val / 4, by omega⟩ : Fin 4) (⟨t.val % 4 * 512 + r.val, by omega⟩ : Fin 2048) j :=
    funext fun ax => Fin.ext (by
      match ax with
      | ⟨0, _⟩ => show win3_3.index t (0 : Fin 3) * 1 + 1 * z.val = t.val / 4; omega
      | ⟨1, _⟩ => show win3_3.index t (1 : Fin 3) * 512 + 1 * r.val = t.val % 4 * 512 + r.val; omega
      | ⟨2, _⟩ => show win3_3.index t (2 : Fin 3) * 1024 + 1 * j.val = j.val; omega)
  show AttnHead.blockOut (iblk3 V c 0 t) (iblk3 V c 1 t) (iblk3 V c 2 t) (ix3 z r j)
    = MhaSpec.mergedArr (V c main_v4) (V c main_v9) (V c main_v14) (((cfg3.win 3).blk t).view.emb (ix3 z r j))
  rw [hemb]
  exact blockOut_eq (iblk3 V c 0 t) (iblk3 V c 1 t) (iblk3 V c 2 t) (V c main_v4) (V c main_v9) (V c main_v14) z r j
    ⟨t.val / 4, by omega⟩ ⟨t.val % 4 * 512 + r.val, by omega⟩
    (fun j' => read_q V c t 0 r j' _ _ rfl rfl) (fun t' j' => read_k V c t 0 t' j' _ rfl) (fun t' j' => read_v V c t 0 t' j' _ rfl)

/-- An index of the output is in point t's block iff its batch entry and its block of rows are the point's. -/
theorem mem_blk (t : Fin cfg3.N) (i : S4x2048x1024.Idx) :
    i ∈ ((cfg3.win 3).blk t).view.set ↔ ∀ ax : Fin 3, win3_3.index t ax * S1x512x1024.size ax ≤ (i ax).val
      ∧ (i ax).val < win3_3.index t ax * S1x512x1024.size ax + S1x512x1024.size ax := by
  show i ∈ ((View.whole main_v15).slice (win3_3.rect t)).set ↔ _
  rw [View.set_slice_whole, Rect.mem_set_unit]
  exact Iff.rfl

/-- Every entry of the output is written back by the point of its batch entry and block of rows. -/
theorem cover (i : S4x2048x1024.Idx) :
    ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  have ht : (i 0).val * 4 + (i 1).val / 512 < cfg3.N := by rw [show cfg3.N = 16 from N_3]; omega
  obtain ⟨-, -, -, -, -, -, -, -, -, e30, e31, e32⟩ := idx_facts ⟨(i 0).val * 4 + (i 1).val / 512, ht⟩
  refine ⟨⟨(i 0).val * 4 + (i 1).val / 512, ht⟩, flush3_3 _, ?_⟩
  rw [mem_blk]
  intro ax
  match ax with
  | ⟨0, _⟩ =>
    show win3_3.index ⟨(i 0).val * 4 + (i 1).val / 512, ht⟩ (0 : Fin 3) * 1 ≤ (i 0).val
      ∧ (i 0).val < win3_3.index ⟨(i 0).val * 4 + (i 1).val / 512, ht⟩ (0 : Fin 3) * 1 + 1
    rw [e30]; show ((i 0).val * 4 + (i 1).val / 512) / 4 * 1 ≤ (i 0).val ∧ (i 0).val < ((i 0).val * 4 + (i 1).val / 512) / 4 * 1 + 1; omega
  | ⟨1, _⟩ =>
    show win3_3.index ⟨(i 0).val * 4 + (i 1).val / 512, ht⟩ (1 : Fin 3) * 512 ≤ (i 1).val
      ∧ (i 1).val < win3_3.index ⟨(i 0).val * 4 + (i 1).val / 512, ht⟩ (1 : Fin 3) * 512 + 512
    rw [e31]; show ((i 0).val * 4 + (i 1).val / 512) % 4 * 512 ≤ (i 1).val ∧ (i 1).val < ((i 0).val * 4 + (i 1).val / 512) % 4 * 512 + 512; omega
  | ⟨2, _⟩ =>
    show win3_3.index ⟨(i 0).val * 4 + (i 1).val / 512, ht⟩ (2 : Fin 3) * 1024 ≤ (i 2).val
      ∧ (i 2).val < win3_3.index ⟨(i 0).val * 4 + (i 1).val / 512, ht⟩ (2 : Fin 3) * 1024 + 1024
    rw [e32]; omega

/-- The output array after the launch: the heads' outputs side by side, of the three arrays as the launch finds them. -/
theorem final (c : Dev nD) :
    (dat3 V c).arrAt 3 cfg3.N = MhaSpec.mergedArr (V c main_v4) (V c main_v9) (V c main_v14) :=
  (dat3 V c).arrAt_eq_of_cover 3 _ (fun t _ => flushed_eq V c t) (cover)

end Cert.KernelIdeal.Attn

end
-- ==== Proof.KernelFold.lean ====
/-
  The kernel program's result, read through its launches and the host operations between them, is the multi-head
  attention layer of MhaSpec applied to the eleven argument arrays.

  The program flattens each activation [4, 2048, 1024] to a matrix [8192, 1024] (row-major: entry (n, s, e) is entry
  (n·2048 + s, e)), stands each bias vector up as a row, applies a linear layer to the matrix, and reads the result
  back as [4, 2048, 1024]; a change of format of a weight matrix is the identity on extended reals. So each of the four
  linear launches between its two changes of shape is the linear layer of MhaSpec on the activation, sum by sum over
  the same 1024 terms. The three projections feed the attention launch, whose result feeds the last linear layer.
  Between the launches every buffer that is neither written by a host operation nor owned by a launch keeps its
  contents, so each operand is read back to where it was produced.
-/
import proofs.«132513_j14877766714149_2_alg».proof.Proof.Gen.KernelIdeal.Frame
import proofs.«132513_j14877766714149_2_alg».proof.Proof.Linear0
import proofs.«132513_j14877766714149_2_alg».proof.Proof.Linear1
import proofs.«132513_j14877766714149_2_alg».proof.Proof.Linear2
import proofs.«132513_j14877766714149_2_alg».proof.Proof.Linear4
import proofs.«132513_j14877766714149_2_alg».proof.Proof.AttnRegion
import proofs.«132513_j14877766714149_2_alg».proof.Proof.MhaArrays
import proofs.«132513_j14877766714149_2_alg».proof.Proof.LibSoftLayout
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem

/-! ## Row-major flattening, and the linear layer between its two changes of shape -/

section Layout
variable {α : Type}

/-- [4, 2048, 1024] read as [8192, 1024]: entry (n·2048 + s, e) is entry (n, s, e). -/
theorem flat_apply (h : (⟨3, ![4, 2048, 1024]⟩ : Shape).ShapeCasts ⟨2, ![8192, 1024]⟩)
    (X : (⟨3, ![4, 2048, 1024]⟩ : Shape).Idx → α) (r : Fin 8192) (n : Fin 4) (s : Fin 2048) (e : Fin 1024)
    (hr : r.val = n.val * 2048 + s.val) :
    shapeCast ⟨2, ![8192, 1024]⟩ X h (ix2 r e) = X (ix3 n s e) := by
  refine shapeCast_apply X h (ix2 r e) (ix3 n s e) ?_
  rw [Shape.rowMajor_val_two, Shape.rowMajor_val_three]
  show (n.val * 2048 + s.val) * 1024 + e.val = r.val * 1024 + e.val
  rw [hr]

/-- [8192, 1024] read as [4, 2048, 1024]: entry (n, s, e) is entry (n·2048 + s, e). -/
theorem unflat_apply (h : (⟨2, ![8192, 1024]⟩ : Shape).ShapeCasts ⟨3, ![4, 2048, 1024]⟩)
    (Y : (⟨2, ![8192, 1024]⟩ : Shape).Idx → α) (n : Fin 4) (s : Fin 2048) (e : Fin 1024) (r : Fin 8192)
    (hr : r.val = n.val * 2048 + s.val) :
    shapeCast ⟨3, ![4, 2048, 1024]⟩ Y h (ix3 n s e) = Y (ix2 r e) := by
  refine shapeCast_apply Y h (ix3 n s e) (ix2 r e) ?_
  rw [Shape.rowMajor_val_two, Shape.rowMajor_val_three]
  show r.val * 1024 + e.val = (n.val * 2048 + s.val) * 1024 + e.val
  rw [hr]

end Layout

/-- The row n·2048 + s of the flattened activation. -/
def rowOf (n : Fin 4) (s : Fin 2048) : Fin 8192 :=
  ⟨n.val * 2048 + s.val, by have := n.isLt; have := s.isLt; omega⟩

/-- A linear layer on the flattened activation, with the bias stood up as a row, read back as [4, 2048, 1024], is
    the linear layer on the activation: at (n, s, j) both are Σ_e X(n, s, e) · W(j, e) + b(j). -/
theorem lin_glue (h1 : (⟨3, ![4, 2048, 1024]⟩ : Shape).ShapeCasts ⟨2, ![8192, 1024]⟩)
    (h2 : (⟨1, ![1024]⟩ : Shape).ShapeCasts ⟨2, ![1, 1024]⟩)
    (h3 : (⟨2, ![8192, 1024]⟩ : Shape).ShapeCasts ⟨3, ![4, 2048, 1024]⟩)
    (X : (⟨3, ![4, 2048, 1024]⟩ : Shape).Idx → EReal) (W : (⟨2, ![1024, 1024]⟩ : Shape).Idx → EReal)
    (b : (⟨1, ![1024]⟩ : Shape).Idx → EReal) :
    shapeCast ⟨3, ![4, 2048, 1024]⟩
        (LinearRows.rows (R := 8192) (J := 1024) (E := 1024) (shapeCast ⟨2, ![8192, 1024]⟩ X h1) W
          (shapeCast ⟨2, ![1, 1024]⟩ b h2)) h3
      = fun i => MhaSpec.lin (MhaSpec.act X) (MhaSpec.mat W) (MhaSpec.vec b) (i 0) (i 1) (i 2) := by
  funext i
  obtain ⟨n, s, j, rfl⟩ : ∃ (n : Fin 4) (s : Fin 2048) (j : Fin 1024), i = ix3 n s j := ⟨i 0, i 1, i 2, eq_ix3 i⟩
  rw [unflat_apply h3 _ n s j (rowOf n s) rfl, LinearRows.rows_apply, SoftLayout.vec_row_cast_apply]
  show _ = (∑ e : Fin 1024, X (ix3 n s e) * W (ix2 j e)) + b (ix1 j)
  refine congrArg (· + b (ix1 j)) (Finset.sum_congr rfl fun e _ => ?_)
  rw [flat_apply h1 X (rowOf n s) n s e rfl]

/-- An activation given by its coordinates, read by its coordinates. -/
theorem act_mk (f : MhaSpec.Act) : MhaSpec.act (fun i => f (i 0) (i 1) (i 2)) = f := rfl

/-! ## Reading a buffer back through the program

Between two boundaries of the program a buffer keeps its contents unless a host operation of the stretch writes it or
the launch owns it. -/

/-- A buffer none of a stretch's host operations writes holds after the stretch what it held before. -/
macro "stretch_keeps" : tactic => `(tactic| (
  refine StableHlo.after_of_forall_not_mem _ _ (List.forall_iff_forall_mem.mp ?_)
  simp only [hostOps0, hostOps1, hostOps2, hostOps3, hostOps4, hostOps5, List.Forall, StableHlo.unary_writes,
    StableHlo.reshape_writes, Finset.mem_singleton]
  repeat' apply And.intro
  all_goals exact StableHlo.devRef_ne_of_ne (by decide)))

section Fold
variable (m : (ℓ : Loc nD τ sig) → Buf (Elt Ideal) ℓ) (ρ : Dev nD → PrngReg) (c : Dev nD)

/-! ### The arguments a later stretch reads are still as launched -/

theorem W2_arg1 : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by stretch_keeps
    _ = m ((c.tc : Thread nD τ).loc main_arg1) := rfl
theorem W2_arg5 : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by stretch_keeps
    _ = m ((c.tc : Thread nD τ).loc main_arg5) := rfl
theorem W2_arg6 : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by stretch_keeps
    _ = m ((c.tc : Thread nD τ).loc main_arg6) := rfl

/-! ### The query projection: launch 0 between its changes of shape -/

/-- After the stretch that follows launch 0, the query projection as an array [4, 2048, 1024]. -/
theorem q_arr :
    (W3 m ρ c (Proc.devRef .tc main_v4) : (⟨3, ![4, 2048, 1024]⟩ : Shape).Idx → EReal)
      = fun i => MhaSpec.lin (MhaSpec.act (m ((c.tc : Thread nD τ).loc main_arg0)))
          (MhaSpec.mat (m ((c.tc : Thread nD τ).loc main_arg3))) (MhaSpec.vec (m ((c.tc : Thread nD τ).loc main_arg4)))
          (i 0) (i 1) (i 2) := by
  have e4 : (W3 m ρ c (Proc.devRef .tc main_v4) : (⟨3, ![4, 2048, 1024]⟩ : Shape).Idx → EReal)
      = shapeCast ⟨3, ![4, 2048, 1024]⟩ (W2 m ρ c (Proc.devRef .tc main_v3) : (⟨2, ![8192, 1024]⟩ : Shape).Idx → EReal)
          shapeCasts_S8192x1024_S4x2048x1024 := by
    show StableHlo.after hostOps1 _ (Proc.devRef .tc main_v4) = _
    after_results
    rfl
  have e3 : (W2 m ρ c (Proc.devRef .tc main_v3) : (⟨2, ![8192, 1024]⟩ : Shape).Idx → EReal)
      = LinearRows.rows (R := 8192) (J := 1024) (E := 1024) (V1 m ρ c main_v0) (V1 m ρ c main_v1) (V1 m ρ c main_v2) :=
    (W2_arr m ρ c 3).trans (Linear0.final (V1 m ρ) c)
  have e0 : (V1 m ρ c main_v0 : (⟨2, ![8192, 1024]⟩ : Shape).Idx → EReal)
      = shapeCast ⟨2, ![8192, 1024]⟩ (m ((c.tc : Thread nD τ).loc main_arg0) : (⟨3, ![4, 2048, 1024]⟩ : Shape).Idx → EReal)
          shapeCasts_S4x2048x1024_S8192x1024 := by
    show StableHlo.after hostOps0 _ (Proc.devRef .tc main_v0) = _
    after_results
    rfl
  have e1 : (V1 m ρ c main_v1 : (⟨2, ![1024, 1024]⟩ : Shape).Idx → EReal) = m ((c.tc : Thread nD τ).loc main_arg3) := by
    show StableHlo.after hostOps0 _ (Proc.devRef .tc main_v1) = _
    after_results
    rfl
  have e2 : (V1 m ρ c main_v2 : (⟨2, ![1, 1024]⟩ : Shape).Idx → EReal)
      = shapeCast ⟨2, ![1, 1024]⟩ (m ((c.tc : Thread nD τ).loc main_arg4) : (⟨1, ![1024]⟩ : Shape).Idx → EReal)
          shapeCasts_S1024_S1x1024 := by
    show StableHlo.after hostOps0 _ (Proc.devRef .tc main_v2) = _
    after_results
    rfl
  rw [e4, e3, e0, e1, e2]
  exact lin_glue _ _ _ _ _ _

theorem W4_arg2 : W4 m ρ c (Proc.devRef .tc main_arg2) = m ((c.tc : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_keeps
    _ = W1 m ρ c (Proc.devRef .tc main_arg2) := W2_of_ne m ρ c main_arg2 (by decide)
    _ = W0 m ρ c (Proc.devRef .tc main_arg2) := by stretch_keeps
    _ = m ((c.tc : Thread nD τ).loc main_arg2) := rfl
theorem W4_arg7 : W4 m ρ c (Proc.devRef .tc main_arg7) = m ((c.tc : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c.tc : Thread nD τ).loc main_arg7) := rfl
theorem W4_arg8 : W4 m ρ c (Proc.devRef .tc main_arg8) = m ((c.tc : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps
    _ = m ((c.tc : Thread nD τ).loc main_arg8) := rfl
theorem W8_arg9 : W8 m ρ c (Proc.devRef .tc main_arg9) = m ((c.tc : Thread nD τ).loc main_arg9) :=
  calc W8 m ρ c (Proc.devRef .tc main_arg9)
    _ = W9 m ρ c (Proc.devRef .tc main_arg9) := Eq.symm (by stretch_keeps)
    _ = W10 m ρ c (Proc.devRef .tc main_arg9) := (W10_of_ne m ρ c main_arg9 (by decide)).symm
    _ = W11 m ρ c (Proc.devRef .tc main_arg9) := Eq.symm (by stretch_keeps)
    _ = m ((c.tc : Thread nD τ).loc main_arg9) := W11_main_arg9 m ρ c
theorem W8_arg10 : W8 m ρ c (Proc.devRef .tc main_arg10) = m ((c.tc : Thread nD τ).loc main_arg10) :=
  calc W8 m ρ c (Proc.devRef .tc main_arg10)
    _ = W9 m ρ c (Proc.devRef .tc main_arg10) := Eq.symm (by stretch_keeps)
    _ = W10 m ρ c (Proc.devRef .tc main_arg10) := (W10_of_ne m ρ c main_arg10 (by decide)).symm
    _ = W11 m ρ c (Proc.devRef .tc main_arg10) := Eq.symm (by stretch_keeps)
    _ = m ((c.tc : Thread nD τ).loc main_arg10) := W11_main_arg10 m ρ c

/-! ### The key and value projections: launches 1 and 2 between their changes of shape -/

/-- After the stretch that follows launch 1, the key projection as an array [4, 2048, 1024]. -/
theorem k_arr :
    (W5 m ρ c (Proc.devRef .tc main_v9) : (⟨3, ![4, 2048, 1024]⟩ : Shape).Idx → EReal)
      = fun i => MhaSpec.lin (MhaSpec.act (m ((c.tc : Thread nD τ).loc main_arg1)))
          (MhaSpec.mat (m ((c.tc : Thread nD τ).loc main_arg5))) (MhaSpec.vec (m ((c.tc : Thread nD τ).loc main_arg6)))
          (i 0) (i 1) (i 2) := by
  have e4 : (W5 m ρ c (Proc.devRef .tc main_v9) : (⟨3, ![4, 2048, 1024]⟩ : Shape).Idx → EReal)
      = shapeCast ⟨3, ![4, 2048, 1024]⟩ (W4 m ρ c (Proc.devRef .tc main_v8) : (⟨2, ![8192, 1024]⟩ : Shape).Idx → EReal)
          shapeCasts_S8192x1024_S4x2048x1024 := by
    show StableHlo.after hostOps2 _ (Proc.devRef .tc main_v9) = _
    after_results
    rfl
  have e3 : (W4 m ρ c (Proc.devRef .tc main_v8) : (⟨2, ![8192, 1024]⟩ : Shape).Idx → EReal)
      = LinearRows.rows (R := 8192) (J := 1024) (E := 1024) (V3 m ρ c main_v5) (V3 m ρ c main_v6) (V3 m ρ c main_v7) :=
    (W4_arr m ρ c 3).trans (Linear1.final (V3 m ρ) c)
  have e0 : (V3 m ρ c main_v5 : (⟨2, ![8192, 1024]⟩ : Shape).Idx → EReal)
      = shapeCast ⟨2, ![8192, 1024]⟩ (m ((c.tc : Thread nD τ).loc main_arg1) : (⟨3, ![4, 2048, 1024]⟩ : Shape).Idx → EReal)
          shapeCasts_S4x2048x1024_S8192x1024 := by
    show StableHlo.after hostOps1 _ (Proc.devRef .tc main_v5) = _
    after_results
    rw [W2_arg1 m ρ c] <;> rfl
  have e1 : (V3 m ρ c main_v6 : (⟨2, ![1024, 1024]⟩ : Shape).Idx → EReal) = m ((c.tc : Thread nD τ).loc main_arg5) := by
    show StableHlo.after hostOps1 _ (Proc.devRef .tc main_v6) = _
    after_results
    rw [W2_arg5 m ρ c] <;> rfl
  have e2 : (V3 m ρ c main_v7 : (⟨2, ![1, 1024]⟩ : Shape).Idx → EReal)
      = shapeCast ⟨2, ![1, 1024]⟩ (m ((c.tc : Thread nD τ).loc main_arg6) : (⟨1, ![1024]⟩ : Shape).Idx → EReal)
          shapeCasts_S1024_S1x1024 := by
    show StableHlo.after hostOps1 _ (Proc.devRef .tc main_v7) = _
    after_results
    rw [W2_arg6 m ρ c] <;> rfl
  rw [e4, e3, e0, e1, e2]
  exact lin_glue _ _ _ _ _ _

/-- After the stretch that follows launch 2, the value projection as an array [4, 2048, 1024]. -/
theorem v_arr :
    (W7 m ρ c (Proc.devRef .tc main_v14) : (⟨3, ![4, 2048, 1024]⟩ : Shape).Idx → EReal)
      = fun i => MhaSpec.lin (MhaSpec.act (m ((c.tc : Thread nD τ).loc main_arg2)))
          (MhaSpec.mat (m ((c.tc : Thread nD τ).loc main_arg7))) (MhaSpec.vec (m ((c.tc : Thread nD τ).loc main_arg8)))
          (i 0) (i 1) (i 2) := by
  have e4 : (W7 m ρ c (Proc.devRef .tc main_v14) : (⟨3, ![4, 2048, 1024]⟩ : Shape).Idx → EReal)
      = shapeCast ⟨3, ![4, 2048, 1024]⟩ (W6 m ρ c (Proc.devRef .tc main_v13) : (⟨2, ![8192, 1024]⟩ : Shape).Idx → EReal)
          shapeCasts_S8192x1024_S4x2048x1024 := by
    show StableHlo.after hostOps3 _ (Proc.devRef .tc main_v14) = _
    after_results
    rfl
  have e3 : (W6 m ρ c (Proc.devRef .tc main_v13) : (⟨2, ![8192, 1024]⟩ : Shape).Idx → EReal)
      = LinearRows.rows (R := 8192) (J := 1024) (E := 1024) (V5 m ρ c main_v10) (V5 m ρ c main_v11) (V5 m ρ c main_v12) :=
    (W6_arr m ρ c 3).trans (Linear2.final (V5 m ρ) c)
  have e0 : (V5 m ρ c main_v10 : (⟨2, ![8192, 1024]⟩ : Shape).Idx → EReal)
      = shapeCast ⟨2, ![8192, 1024]⟩ (m ((c.tc : Thread nD τ).loc main_arg2) : (⟨3, ![4, 2048, 1024]⟩ : Shape).Idx → EReal)
          shapeCasts_S4x2048x1024_S8192x1024 := by
    show StableHlo.after hostOps2 _ (Proc.devRef .tc main_v10) = _
    after_results
    rw [W4_arg2 m ρ c] <;> rfl
  have e1 : (V5 m ρ c main_v11 : (⟨2, ![1024, 1024]⟩ : Shape).Idx → EReal) = m ((c.tc : Thread nD τ).loc main_arg7) := by
    show StableHlo.after hostOps2 _ (Proc.devRef .tc main_v11) = _
    after_results
    rw [W4_arg7 m ρ c] <;> rfl
  have e2 : (V5 m ρ c main_v12 : (⟨2, ![1, 1024]⟩ : Shape).Idx → EReal)
      = shapeCast ⟨2, ![1, 1024]⟩ (m ((c.tc : Thread nD τ).loc main_arg8) : (⟨1, ![1024]⟩ : Shape).Idx → EReal)
          shapeCasts_S1024_S1x1024 := by
    show StableHlo.after hostOps2 _ (Proc.devRef .tc main_v12) = _
    after_results
    rw [W4_arg8 m ρ c] <;> rfl
  rw [e4, e3, e0, e1, e2]
  exact lin_glue _ _ _ _ _ _

/-! ### The attention launch finds the three projections -/

/-- The query projection is still in place when the attention launch is entered. -/
theorem q_kept : W7 m ρ c (Proc.devRef .tc main_v4) = W3 m ρ c (Proc.devRef .tc main_v4) :=
  calc W7 m ρ c (Proc.devRef .tc main_v4)
    _ = W6 m ρ c (Proc.devRef .tc main_v4) := by stretch_keeps
    _ = W5 m ρ c (Proc.devRef .tc main_v4) := W6_of_ne m ρ c main_v4 (by decide)
    _ = W4 m ρ c (Proc.devRef .tc main_v4) := by stretch_keeps
    _ = W3 m ρ c (Proc.devRef .tc main_v4) := W4_of_ne m ρ c main_v4 (by decide)

/-- The key projection is still in place when the attention launch is entered. -/
theorem k_kept : W7 m ρ c (Proc.devRef .tc main_v9) = W5 m ρ c (Proc.devRef .tc main_v9) :=
  calc W7 m ρ c (Proc.devRef .tc main_v9)
    _ = W6 m ρ c (Proc.devRef .tc main_v9) := by stretch_keeps
    _ = W5 m ρ c (Proc.devRef .tc main_v9) := W6_of_ne m ρ c main_v9 (by decide)

/-- After the attention launch, its output array: the heads' outputs side by side, of the three projections. -/
theorem attn_arr :
    (W8 m ρ c (Proc.devRef .tc main_v15) : (⟨3, ![4, 2048, 1024]⟩ : Shape).Idx → EReal)
      = fun i => MhaSpec.merged (MhaSpec.lin (MhaSpec.act (m ((c.tc : Thread nD τ).loc main_arg0))) (MhaSpec.mat (m ((c.tc : Thread nD τ).loc main_arg3))) (MhaSpec.vec (m ((c.tc : Thread nD τ).loc main_arg4))))
          (MhaSpec.lin (MhaSpec.act (m ((c.tc : Thread nD τ).loc main_arg1))) (MhaSpec.mat (m ((c.tc : Thread nD τ).loc main_arg5))) (MhaSpec.vec (m ((c.tc : Thread nD τ).loc main_arg6))))
          (MhaSpec.lin (MhaSpec.act (m ((c.tc : Thread nD τ).loc main_arg2))) (MhaSpec.mat (m ((c.tc : Thread nD τ).loc main_arg7))) (MhaSpec.vec (m ((c.tc : Thread nD τ).loc main_arg8))))
          (i 0) (i 1) (i 2) := by
  have e : (W8 m ρ c (Proc.devRef .tc main_v15) : (⟨3, ![4, 2048, 1024]⟩ : Shape).Idx → EReal)
      = MhaSpec.mergedArr (V7 m ρ c main_v4) (V7 m ρ c main_v9) (V7 m ρ c main_v14) :=
    (W8_arr m ρ c 3).trans (Attn.final (V7 m ρ) c)
  have eq : (V7 m ρ c main_v4 : (⟨3, ![4, 2048, 1024]⟩ : Shape).Idx → EReal) = _ := (q_kept m ρ c).trans (q_arr m ρ c)
  have ek : (V7 m ρ c main_v9 : (⟨3, ![4, 2048, 1024]⟩ : Shape).Idx → EReal) = _ := (k_kept m ρ c).trans (k_arr m ρ c)
  have ev : (V7 m ρ c main_v14 : (⟨3, ![4, 2048, 1024]⟩ : Shape).Idx → EReal) = _ := v_arr m ρ c
  rw [e, eq, ek, ev]
  rfl

end Fold

/-! ## The result -/

/-- The kernel program's result array is the layer of MhaSpec applied to the eleven argument arrays as launched:
    the last linear launch between its changes of shape, on the attention launch's output. -/
theorem result_eq (m : (ℓ : Loc nD τ sig) → Buf (Elt Ideal) ℓ) (ρ : Dev nD → PrngReg) (c : Dev nD) :
    Cert.KernelIdeal.Gen.W11 (F := Ideal) m ρ c (Proc.devRef .tc main_v20)
      = MhaSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e20 : (W11 m ρ c (Proc.devRef .tc main_v20) : (⟨3, ![4, 2048, 1024]⟩ : Shape).Idx → EReal)
      = shapeCast ⟨3, ![4, 2048, 1024]⟩ (W10 m ρ c (Proc.devRef .tc main_v19) : (⟨2, ![8192, 1024]⟩ : Shape).Idx → EReal)
          shapeCasts_S8192x1024_S4x2048x1024 := by
    show StableHlo.after hostOps5 _ (Proc.devRef .tc main_v20) = _
    after_results
    rfl
  have e19 : (W10 m ρ c (Proc.devRef .tc main_v19) : (⟨2, ![8192, 1024]⟩ : Shape).Idx → EReal)
      = LinearRows.rows (R := 8192) (J := 1024) (E := 1024) (V9 m ρ c main_v16) (V9 m ρ c main_v17) (V9 m ρ c main_v18) :=
    (W10_arr m ρ c 3).trans (Linear4.final (V9 m ρ) c)
  have e16 : (V9 m ρ c main_v16 : (⟨2, ![8192, 1024]⟩ : Shape).Idx → EReal)
      = shapeCast ⟨2, ![8192, 1024]⟩ (fun i => MhaSpec.merged (MhaSpec.lin (MhaSpec.act (m ((c.tc : Thread nD τ).loc main_arg0))) (MhaSpec.mat (m ((c.tc : Thread nD τ).loc main_arg3))) (MhaSpec.vec (m ((c.tc : Thread nD τ).loc main_arg4))))
          (MhaSpec.lin (MhaSpec.act (m ((c.tc : Thread nD τ).loc main_arg1))) (MhaSpec.mat (m ((c.tc : Thread nD τ).loc main_arg5))) (MhaSpec.vec (m ((c.tc : Thread nD τ).loc main_arg6))))
          (MhaSpec.lin (MhaSpec.act (m ((c.tc : Thread nD τ).loc main_arg2))) (MhaSpec.mat (m ((c.tc : Thread nD τ).loc main_arg7))) (MhaSpec.vec (m ((c.tc : Thread nD τ).loc main_arg8))))
          (i 0) (i 1) (i 2) : (⟨3, ![4, 2048, 1024]⟩ : Shape).Idx → EReal)
          shapeCasts_S4x2048x1024_S8192x1024 := by
    show StableHlo.after hostOps4 _ (Proc.devRef .tc main_v16) = _
    after_results
    rw [attn_arr m ρ c] <;> rfl
  have e17 : (V9 m ρ c main_v17 : (⟨2, ![1024, 1024]⟩ : Shape).Idx → EReal) = m ((c.tc : Thread nD τ).loc main_arg9) := by
    show StableHlo.after hostOps4 _ (Proc.devRef .tc main_v17) = _
    after_results
    rw [W8_arg9 m ρ c] <;> rfl
  have e18 : (V9 m ρ c main_v18 : (⟨2, ![1, 1024]⟩ : Shape).Idx → EReal)
      = shapeCast ⟨2, ![1, 1024]⟩ (m ((c.tc : Thread nD τ).loc main_arg10) : (⟨1, ![1024]⟩ : Shape).Idx → EReal)
          shapeCasts_S1024_S1x1024 := by
    show StableHlo.after hostOps4 _ (Proc.devRef .tc main_v18) = _
    after_results
    rw [W8_arg10 m ρ c] <;> rfl
  rw [e20, e19, e16, e17, e18, lin_glue]
  rfl

end Cert.KernelIdeal.Fold

end
-- ==== Proof.RefValue.lean ====
/-
  The reference program's result, read entry by entry, is the multi-head attention layer of MhaSpec.

  The program computes three linear projections, splits their 1024 columns into 16 heads of 64 lanes (a reshape
  followed by an exchange of the row and head coordinates), forms each head's scores as a contraction over the 64
  lanes divided by the square root of 64, subtracts each row's maximum, exponentiates, divides by the row's sum,
  contracts the weights with the value rows, lays the heads side by side again and applies the last projection.
  Each stage is read at explicit coordinates and identified with the corresponding function of MhaSpec; no sum is
  re-indexed. Three small laws bridge the spellings: dividing by the square root of 64 is multiplying by 1/8; a
  maximum folded from -∞ already dominates -∞; a sum started from the zero word is the sum.
-/
import proofs.«132513_j14877766714149_2_alg».proof.Defs
import proofs.«132513_j14877766714149_2_alg».proof.Proof.Gen.ReferenceIdeal.Read
import proofs.«132513_j14877766714149_2_alg».proof.Proof.MhaSpec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- An activation array [4, 2048, 1024]. -/
abbrev ActArr : Type := (⟨S4x2048x1024, .f32⟩ : BufTy).Contents (Elt Ideal)
/-- A weight matrix [1024, 1024]. -/
abbrev MatArr : Type := (⟨S1024x1024, .f32⟩ : BufTy).Contents (Elt Ideal)
/-- A bias vector [1024]. -/
abbrev VecArr : Type := (⟨S1024, .f32⟩ : BufTy).Contents (Elt Ideal)

/-! ## The three projections -/

/-- The query projection at (n, s, j): Σ_e x0(n, s, e) · x3(j, e) + x4(j). -/
theorem q_read (x0 : ActArr) (x3 : MatArr) (x4 : VecArr) (n : Fin 4) (s : Fin 2048) (j : Fin 1024) :
    val_main_v3 (F := Ideal) x0 x3 x4 (ix3 n s j)
      = MhaSpec.lin (MhaSpec.act x0) (MhaSpec.mat x3) (MhaSpec.vec x4) n s j := by
  rw [val_main_v3_apply, val_main_v0_apply, val_main_v2_apply, val_main_v1_apply]
  simp only [Ideal.addf_def]
  unfold MhaSpec.lin MhaSpec.act MhaSpec.mat MhaSpec.vec
  have hl : ∀ k : Fin 1024, lidx_main_v0 (ix3 n s j) k = ix3 n s k := fun k => funext fun a => by
    match a with | ⟨0, _⟩ => rfl | ⟨1, _⟩ => rfl | ⟨2, _⟩ => rfl
  have hr : ∀ k : Fin 1024, ridx_main_v0 (ix3 n s j) k = ix2 j k := fun k => funext fun a => by
    match a with | ⟨0, _⟩ => rfl | ⟨1, _⟩ => rfl
  have hb : idx_main_v1 (idx_main_v2 (ix3 n s j)) = ix1 j := funext fun a => by
    match a with | ⟨0, _⟩ => rfl
  rw [hb]
  refine congrArg (· + x4 (ix1 j)) (Finset.sum_congr rfl fun k _ => ?_)
  rw [hl, hr]

/-- The key projection at (n, s, j). -/
theorem k_read (x1 : ActArr) (x5 : MatArr) (x6 : VecArr) (n : Fin 4) (s : Fin 2048) (j : Fin 1024) :
    val_main_v9 (F := Ideal) x1 x5 x6 (ix3 n s j)
      = MhaSpec.lin (MhaSpec.act x1) (MhaSpec.mat x5) (MhaSpec.vec x6) n s j := by
  rw [val_main_v9_apply, val_main_v6_apply, val_main_v8_apply, val_main_v7_apply]
  simp only [Ideal.addf_def]
  unfold MhaSpec.lin MhaSpec.act MhaSpec.mat MhaSpec.vec
  have hl : ∀ k : Fin 1024, lidx_main_v6 (ix3 n s j) k = ix3 n s k := fun k => funext fun a => by
    match a with | ⟨0, _⟩ => rfl | ⟨1, _⟩ => rfl | ⟨2, _⟩ => rfl
  have hr : ∀ k : Fin 1024, ridx_main_v6 (ix3 n s j) k = ix2 j k := fun k => funext fun a => by
    match a with | ⟨0, _⟩ => rfl | ⟨1, _⟩ => rfl
  have hb : idx_main_v7 (idx_main_v8 (ix3 n s j)) = ix1 j := funext fun a => by
    match a with | ⟨0, _⟩ => rfl
  rw [hb]
  refine congrArg (· + x6 (ix1 j)) (Finset.sum_congr rfl fun k _ => ?_)
  rw [hl, hr]

/-- The value projection at (n, s, j). -/
theorem v_read (x2 : ActArr) (x7 : MatArr) (x8 : VecArr) (n : Fin 4) (s : Fin 2048) (j : Fin 1024) :
    val_main_v15 (F := Ideal) x2 x7 x8 (ix3 n s j)
      = MhaSpec.lin (MhaSpec.act x2) (MhaSpec.mat x7) (MhaSpec.vec x8) n s j := by
  rw [val_main_v15_apply, val_main_v12_apply, val_main_v14_apply, val_main_v13_apply]
  simp only [Ideal.addf_def]
  unfold MhaSpec.lin MhaSpec.act MhaSpec.mat MhaSpec.vec
  have hl : ∀ k : Fin 1024, lidx_main_v12 (ix3 n s j) k = ix3 n s k := fun k => funext fun a => by
    match a with | ⟨0, _⟩ => rfl | ⟨1, _⟩ => rfl | ⟨2, _⟩ => rfl
  have hr : ∀ k : Fin 1024, ridx_main_v12 (ix3 n s j) k = ix2 j k := fun k => funext fun a => by
    match a with | ⟨0, _⟩ => rfl | ⟨1, _⟩ => rfl
  have hb : idx_main_v13 (idx_main_v14 (ix3 n s j)) = ix1 j := funext fun a => by
    match a with | ⟨0, _⟩ => rfl
  rw [hb]
  refine congrArg (· + x8 (ix1 j)) (Finset.sum_congr rfl fun k _ => ?_)
  rw [hl, hr]

/-! ## The split into heads

The reshape [4, 2048, 1024] → [4, 2048, 16, 64] followed by the exchange of the row and head coordinates reads entry
(n, h, s, d) of the result at entry (n, s, h·64 + d) of the operand: in row-major order the flat position
((n·2048 + s)·16 + h)·64 + d is (n·2048 + s)·1024 + (h·64 + d). -/

/-- The operand coordinates of entry (n, h, s, d) of a projection split into heads. -/
theorem split_idx (n : Fin 4) (h : Fin 16) (s : Fin 2048) (d : Fin 64) :
    idx_main_v4 (idx_main_v5 (ix4 n h s d)) = ix3 n s (MhaSpec.col h d) := by
  funext a
  apply Fin.ext
  have hn := n.isLt; have hh := h.isLt; have hs := s.isLt; have hd := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

/-- The queries by head: entry (n, h, s, d) is the query projection at column h·64 + d of row s. -/
theorem qh_read (x0 : ActArr) (x3 : MatArr) (x4 : VecArr) (n : Fin 4) (h : Fin 16) (s : Fin 2048) (d : Fin 64) :
    val_main_v5 (F := Ideal) x0 x3 x4 (ix4 n h s d)
      = MhaSpec.lin (MhaSpec.act x0) (MhaSpec.mat x3) (MhaSpec.vec x4) n s (MhaSpec.col h d) := by
  rw [val_main_v5_apply, val_main_v4_apply, split_idx, q_read]

/-- The keys by head. -/
theorem kh_read (x1 : ActArr) (x5 : MatArr) (x6 : VecArr) (n : Fin 4) (h : Fin 16) (s : Fin 2048) (d : Fin 64) :
    val_main_v11 (F := Ideal) x1 x5 x6 (ix4 n h s d)
      = MhaSpec.lin (MhaSpec.act x1) (MhaSpec.mat x5) (MhaSpec.vec x6) n s (MhaSpec.col h d) := by
  rw [val_main_v11_apply, val_main_v10_apply]
  exact (congrArg _ (split_idx n h s d)).trans (k_read x1 x5 x6 n s (MhaSpec.col h d))

/-- The values by head. -/
theorem vh_read (x2 : ActArr) (x7 : MatArr) (x8 : VecArr) (n : Fin 4) (h : Fin 16) (s : Fin 2048) (d : Fin 64) :
    val_main_v17 (F := Ideal) x2 x7 x8 (ix4 n h s d)
      = MhaSpec.lin (MhaSpec.act x2) (MhaSpec.mat x7) (MhaSpec.vec x8) n s (MhaSpec.col h d) := by
  rw [val_main_v17_apply, val_main_v16_apply]
  exact (congrArg _ (split_idx n h s d)).trans (v_read x2 x7 x8 n s (MhaSpec.col h d))

/-! ## The scores

For one batch entry and head the contraction over the 64 lanes of a query row with a key row, divided by the square
root of 64 broadcast from a scalar: dividing by √64 is multiplying by 1/8. -/

section Scores
variable (x0 x1 : ActArr) (x3 : MatArr) (x4 : VecArr) (x5 : MatArr) (x6 : VecArr)

/-- The scaled score of query row s against key row t. -/
theorem score_read (n : Fin 4) (h : Fin 16) (s t : Fin 2048) :
    val_main_v21 (F := Ideal) x0 x1 x3 x4 x5 x6 (ix4 n h s t)
      = MhaSpec.score (MhaSpec.lin (MhaSpec.act x0) (MhaSpec.mat x3) (MhaSpec.vec x4))
          (MhaSpec.lin (MhaSpec.act x1) (MhaSpec.mat x5) (MhaSpec.vec x6)) n h s t := by
  rw [val_main_v21_apply, val_main_v18_apply, val_main_v20_apply, val_main_v19_apply, val_main_cst_apply]
  simp only [Ideal.hostDivf_def, Ideal.hostUnary_sqrt_def, Ideal.ofBits_def]
  rw [MhaSpec.div_sqrt_64]
  unfold MhaSpec.score
  have hl : ∀ k : Fin 64, lidx_main_v18 (ix4 n h s t) k = ix4 n h s k := fun k => funext fun a => by
    match a with | ⟨0, _⟩ => rfl | ⟨1, _⟩ => rfl | ⟨2, _⟩ => rfl | ⟨3, _⟩ => rfl
  have hr : ∀ k : Fin 64, ridx_main_v18 (ix4 n h s t) k = ix4 n h t k := fun k => funext fun a => by
    match a with | ⟨0, _⟩ => rfl | ⟨1, _⟩ => rfl | ⟨2, _⟩ => rfl | ⟨3, _⟩ => rfl
  refine congrArg (· * Ideal.ofBits .f32 0x3E000000#32) (Finset.sum_congr rfl fun k _ => ?_)
  rw [hl, hr, qh_read, kh_read]

/-! ## The row maximum

The program folds the maximum over the last axis from the word of -∞ and then takes the maximum of that with -∞
again: a fold of max from b already dominates b. -/

/-- A reduction by maximum over the last axis of a [4, 16, 2048, 2048] array, from the word of -∞, read at (n, h, s):
    the fold of max over the 2048 entries of the row. -/
theorem max_read (y : FVec Ideal S4x16x2048x2048 .f32) (n : Fin 4) (h : Fin 16) (s : Fin 2048) :
    Host.reduce FloatOps.maximumf y (val_main_cst_0 (F := Ideal)) reducesTo_S4x16x2048x2048_S4x16x2048_d3 h_S_ (ix3 n h s)
      = (Finset.univ : Finset (Fin 2048)).fold max (Ideal.ofBits .f32 0xFF800000#32) (fun t => y (ix4 n h s t)) := by
  have hR : S4x16x2048x2048.Reduces [3] S4x16x2048 := by decide
  have e := Host.reduce_eq_fold_single FloatOps.maximumf y (val_main_cst_0 (F := Ideal)) reducesTo_S4x16x2048x2048_S4x16x2048_d3 hR h_S_ (ix3 n h s)
  refine e.trans ?_
  refine congrArg (fun f => Finset.fold max (Ideal.ofBits .f32 0xFF800000#32) f (Finset.univ : Finset (Fin 2048))) ?_
  funext k
  exact congrArg y (funext fun a => Fin.ext (by match a with | ⟨0, _⟩ => rfl | ⟨1, _⟩ => rfl | ⟨2, _⟩ => rfl | ⟨3, _⟩ => rfl))

/-- The maximum of row s of the scores. -/
theorem rowMax_read (n : Fin 4) (h : Fin 16) (s : Fin 2048) :
    val_main_v24 (F := Ideal) x0 x1 x3 x4 x5 x6 (ix3 n h s)
      = MhaSpec.rowMax (MhaSpec.score (MhaSpec.lin (MhaSpec.act x0) (MhaSpec.mat x3) (MhaSpec.vec x4))
          (MhaSpec.lin (MhaSpec.act x1) (MhaSpec.mat x5) (MhaSpec.vec x6)) n h s) := by
  rw [val_main_v24_apply, val_main_v23_apply, val_main_cst_1_apply]
  simp only [Ideal.maximumf_def, Ideal.ofBits_def]
  unfold val_main_v22
  rw [max_read]
  unfold MhaSpec.rowMax
  rw [MhaSpec.max_fold_self]
  refine congrArg (fun f => Finset.fold max (Ideal.ofBits .f32 0xFF800000#32) f (Finset.univ : Finset (Fin 2048))) ?_
  funext t
  exact score_read x0 x1 x3 x4 x5 x6 n h s t

end Scores

/-! ## The softmax weights

Each score less its row's maximum is exponentiated; the row's sum of these exponentials starts from the zero word,
which denotes 0; each exponential is divided by its row's sum. -/

section Weights
variable (x0 x1 : ActArr) (x3 : MatArr) (x4 : VecArr) (x5 : MatArr) (x6 : VecArr)

/-- The exponential of the score of (s, t) less the maximum of row s. -/
theorem expw_read (n : Fin 4) (h : Fin 16) (s t : Fin 2048) :
    val_main_v28 (F := Ideal) x0 x1 x3 x4 x5 x6 (ix4 n h s t)
      = MhaSpec.expw (MhaSpec.lin (MhaSpec.act x0) (MhaSpec.mat x3) (MhaSpec.vec x4))
          (MhaSpec.lin (MhaSpec.act x1) (MhaSpec.mat x5) (MhaSpec.vec x6)) n h s t := by
  rw [val_main_v28_apply, val_main_v27_apply, val_main_v26_apply, val_main_v25_apply]
  simp only [Ideal.hostUnary_exp_def, Ideal.subf_def]
  have hb : idx_main_v25 (idx_main_v26 (ix4 n h s t)) = ix3 n h s := funext fun a => by
    match a with | ⟨0, _⟩ => rfl | ⟨1, _⟩ => rfl | ⟨2, _⟩ => rfl
  rw [hb, score_read, rowMax_read]
  rfl

/-- The sum of the exponentials of row s. -/
theorem rowSum_read (n : Fin 4) (h : Fin 16) (s : Fin 2048) :
    val_main_v29 (F := Ideal) x0 x1 x3 x4 x5 x6 (ix3 n h s)
      = ∑ t : Fin 2048, MhaSpec.expw (MhaSpec.lin (MhaSpec.act x0) (MhaSpec.mat x3) (MhaSpec.vec x4))
          (MhaSpec.lin (MhaSpec.act x1) (MhaSpec.mat x5) (MhaSpec.vec x6)) n h s t := by
  rw [val_main_v29_apply, val_main_cst_2_apply]
  simp only [Ideal.ofBits_def]
  rw [Ideal.ofBits_zero_f32, zero_add]
  refine Finset.sum_congr rfl fun k _ => ?_
  have hk : idx_main_v29 (ix3 n h s) k = ix4 n h s k := funext fun a => by
    match a with | ⟨0, _⟩ => rfl | ⟨1, _⟩ => rfl | ⟨2, _⟩ => rfl | ⟨3, _⟩ => rfl
  rw [hk, expw_read]

/-- The softmax weight of key row t for query row s. -/
theorem weight_read (n : Fin 4) (h : Fin 16) (s t : Fin 2048) :
    val_main_v32 (F := Ideal) x0 x1 x3 x4 x5 x6 (ix4 n h s t)
      = MhaSpec.weight (MhaSpec.lin (MhaSpec.act x0) (MhaSpec.mat x3) (MhaSpec.vec x4))
          (MhaSpec.lin (MhaSpec.act x1) (MhaSpec.mat x5) (MhaSpec.vec x6)) n h s t := by
  rw [val_main_v32_apply, val_main_v31_apply, val_main_v30_apply]
  simp only [Ideal.hostDivf_def]
  have hb : idx_main_v30 (idx_main_v31 (ix4 n h s t)) = ix3 n h s := funext fun a => by
    match a with | ⟨0, _⟩ => rfl | ⟨1, _⟩ => rfl | ⟨2, _⟩ => rfl
  rw [hb, expw_read, rowSum_read]
  rfl

end Weights

/-! ## The heads' outputs, merged, and the last projection -/

section Output
variable (x0 x1 x2 : ActArr) (x3 : MatArr) (x4 : VecArr) (x5 : MatArr) (x6 : VecArr) (x7 : MatArr) (x8 : VecArr)

/-- Lane d of head h's output at row s: the weights of row s contracted with the value rows. -/
theorem head_read (n : Fin 4) (h : Fin 16) (s : Fin 2048) (d : Fin 64) :
    val_main_v33 (F := Ideal) x0 x1 x2 x3 x4 x5 x6 x7 x8 (ix4 n h s d)
      = MhaSpec.head (MhaSpec.lin (MhaSpec.act x0) (MhaSpec.mat x3) (MhaSpec.vec x4))
          (MhaSpec.lin (MhaSpec.act x1) (MhaSpec.mat x5) (MhaSpec.vec x6))
          (MhaSpec.lin (MhaSpec.act x2) (MhaSpec.mat x7) (MhaSpec.vec x8)) n h s d := by
  rw [val_main_v33_apply]
  unfold MhaSpec.head
  have hl : ∀ k : Fin 2048, lidx_main_v33 (ix4 n h s d) k = ix4 n h s k := fun k => funext fun a => by
    match a with | ⟨0, _⟩ => rfl | ⟨1, _⟩ => rfl | ⟨2, _⟩ => rfl | ⟨3, _⟩ => rfl
  have hr : ∀ k : Fin 2048, ridx_main_v33 (ix4 n h s d) k = ix4 n h k d := fun k => funext fun a => by
    match a with | ⟨0, _⟩ => rfl | ⟨1, _⟩ => rfl | ⟨2, _⟩ => rfl | ⟨3, _⟩ => rfl
  refine Finset.sum_congr rfl fun k _ => ?_
  rw [hl, hr, weight_read, vh_read]

/-- The operand coordinates of entry (n, s, j) of the heads laid side by side: the exchange of the head and row
    coordinates followed by the reshape [4, 2048, 16, 64] → [4, 2048, 1024] reads head j div 64, lane j mod 64. -/
theorem merge_idx (n : Fin 4) (s : Fin 2048) (j : Fin 1024) :
    idx_main_v34 (idx_main_v35 (ix3 n s j)) = ix4 n (MhaSpec.headOf j) s (MhaSpec.laneOf j) := by
  funext a
  apply Fin.ext
  have hn := n.isLt; have hs := s.isLt; have hj := j.isLt
  match a with
  | ⟨0, _⟩ => show ((n.val * 2048 + s.val) * 1024 + j.val) / 2097152 = n.val; omega
  | ⟨1, _⟩ => show ((n.val * 2048 + s.val) * 1024 + j.val) / 64 % 16 = j.val / 64; omega
  | ⟨2, _⟩ => show ((n.val * 2048 + s.val) * 1024 + j.val) / 1024 % 2048 = s.val; omega
  | ⟨3, _⟩ => show ((n.val * 2048 + s.val) * 1024 + j.val) % 64 = j.val % 64; omega

/-- The heads' outputs laid side by side. -/
theorem merged_read (n : Fin 4) (s : Fin 2048) (j : Fin 1024) :
    val_main_v35 (F := Ideal) x0 x1 x2 x3 x4 x5 x6 x7 x8 (ix3 n s j)
      = MhaSpec.merged (MhaSpec.lin (MhaSpec.act x0) (MhaSpec.mat x3) (MhaSpec.vec x4))
          (MhaSpec.lin (MhaSpec.act x1) (MhaSpec.mat x5) (MhaSpec.vec x6))
          (MhaSpec.lin (MhaSpec.act x2) (MhaSpec.mat x7) (MhaSpec.vec x8)) n s j := by
  rw [val_main_v35_apply, val_main_v34_apply, merge_idx, head_read]
  rfl

variable (x9 : MatArr) (x10 : VecArr)

/-- The whole layer at (n, s, j). -/
theorem mha_read (n : Fin 4) (s : Fin 2048) (j : Fin 1024) :
    val_main_v39 (F := Ideal) x0 x1 x2 x3 x4 x5 x6 x7 x8 x9 x10 (ix3 n s j)
      = MhaSpec.mha (MhaSpec.act x0) (MhaSpec.act x1) (MhaSpec.act x2) (MhaSpec.mat x3) (MhaSpec.vec x4)
          (MhaSpec.mat x5) (MhaSpec.vec x6) (MhaSpec.mat x7) (MhaSpec.vec x8) (MhaSpec.mat x9) (MhaSpec.vec x10) n s j := by
  rw [val_main_v39_apply, val_main_v36_apply, val_main_v38_apply, val_main_v37_apply]
  simp only [Ideal.addf_def]
  have hl : ∀ k : Fin 1024, lidx_main_v36 (ix3 n s j) k = ix3 n s k := fun k => funext fun a => by
    match a with | ⟨0, _⟩ => rfl | ⟨1, _⟩ => rfl | ⟨2, _⟩ => rfl
  have hr : ∀ k : Fin 1024, ridx_main_v36 (ix3 n s j) k = ix2 j k := fun k => funext fun a => by
    match a with | ⟨0, _⟩ => rfl | ⟨1, _⟩ => rfl
  have hb : idx_main_v37 (idx_main_v38 (ix3 n s j)) = ix1 j := funext fun a => by
    match a with | ⟨0, _⟩ => rfl
  rw [hb]
  show _ = (∑ e : Fin 1024, MhaSpec.merged (MhaSpec.lin (MhaSpec.act x0) (MhaSpec.mat x3) (MhaSpec.vec x4))
          (MhaSpec.lin (MhaSpec.act x1) (MhaSpec.mat x5) (MhaSpec.vec x6))
          (MhaSpec.lin (MhaSpec.act x2) (MhaSpec.mat x7) (MhaSpec.vec x8)) n s e * x9 (ix2 j e)) + x10 (ix1 j)
  refine congrArg (· + x10 (ix1 j)) (Finset.sum_congr rfl fun k _ => ?_)
  rw [hl, hr, merged_read]

end Output

/-! ## The result -/

/-- The reference's result array is the layer of MhaSpec applied to the eleven argument arrays. -/
theorem result_eq (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) :
    Cert.ReferenceIdeal.Read.val_main_v39 (F := Ideal) x0 x1 x2 x3 x4 x5 x6 x7 x8 x9 x10 = MhaSpec.result x0 x1 x2 x3 x4 x5 x6 x7 x8 x9 x10 := by
  funext i
  obtain ⟨n, s, j, rfl⟩ : ∃ (n : Fin 4) (s : Fin 2048) (j : Fin 1024), i = ix3 n s j := ⟨i 0, i 1, i 2, eq_ix3 i⟩
  rw [mha_read]
  rfl

end Cert.ReferenceIdeal.RefValue

end
-- ==== Proof.lean ====
/-
  The kernel program computes a multi-head attention layer — three linear projections, sixteen heads of scaled
  softmax attention, an output projection — in five launches among reshapes; the reference program computes the same
  layer as one sequence of array operations. Read on the extended reals the two results are one function of the eleven
  argument arrays, entry by entry (Proof/MhaSpec.lean): no sum is re-arranged, the kernel's scale 2⁻³ is the reference's
  division by √64, the reference's extra maximum with -∞ and its sum's zero start change nothing.

  Kernel side: each linear launch leaves "rows of X times the transpose of W plus the bias row" (Proof/Linear0.lean …
  Linear4.lean over Proof/LibLinearRows.lean); the attention launch leaves the heads' outputs side by side
  (Proof/AttnHead.lean, Proof/AttnRegion.lean over Proof/LibSoftmaxHead.lean); the program's run ends with the result
  buffer at the last boundary of the fold of these through the reshapes (Proof/KernelRun.lean), which is the layer
  (Proof/KernelFold.lean). Reference side: its run read one operation at a time is the layer (Proof/RefValue.lean).
  The three frames are the programs' runs with the values dropped; no operation was rewritten between the kernel and
  its idealization.
-/
import proofs.«132513_j14877766714149_2_alg».proof.Defs
import proofs.«132513_j14877766714149_2_alg».proof.Proof.Gen.Kernel
import proofs.«132513_j14877766714149_2_alg».proof.Proof.Gen.Kernel.Frame
import proofs.«132513_j14877766714149_2_alg».proof.Proof.Gen.KernelIdeal
import proofs.«132513_j14877766714149_2_alg».proof.Proof.Gen.KernelIdeal.Frame
import proofs.«132513_j14877766714149_2_alg».proof.Proof.Gen.ReferenceIdeal
import proofs.«132513_j14877766714149_2_alg».proof.Proof.Gen.ReferenceIdeal.Run
import proofs.«132513_j14877766714149_2_alg».proof.Proof.Gen.ReferenceIdeal.Read
import proofs.«132513_j14877766714149_2_alg».proof.Proof.Gen.Pre_finite_inputs
import proofs.«132513_j14877766714149_2_alg».proof.Proof.KernelRun
import proofs.«132513_j14877766714149_2_alg».proof.Proof.KernelFold
import proofs.«132513_j14877766714149_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at the layer of the argument arrays, which agree. -/
theorem algebraic : Cert.algebraic_KernelIdeal_ReferenceIdeal := by
  intro m ρ m' ρ' _ hagree
  refine ⟨fun c => MhaSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result_eq m ρ c), (h c).2⟩)
      (Cert.KernelIdeal.RunValue.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v39_eq, Cert.ReferenceIdeal.RefValue.result_eq,
      a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
